-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S64x512 : Shape := ⟨2, ![64, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S64x512 : S_.BroadcastsInDim S64x512 (![] : Fin 0 → Fin S64x512.rank)
  reducesTo_S64x512_S_d0_1 : S64x512.ReducesTo [0, 1] S_

variable [Facts]

def fn_part1 {F : FTy → Type} [FloatOps F] (main_v13 : IVec S_ 1) (main_v16 : IVec S64x512 1) : IVec S_ 1 :=
  let main_c_5 : IVec S_ 1 := constantI S_ 1 1#1
  let main_v17 : IVec S_ 1 := (fun x v => Host.reduce IntOp.andi x v reducesTo_S64x512_S_d0_1 h_S_) main_v16 main_c_5
  let main_v18 : IVec S_ 1 := andi main_v13 main_v17
  main_v18

def fn {F : FTy → Type} [FloatOps F] (main_arg0 : FVec F S8192x512 .f32) (main_arg1 : FVec F S64x512 .f32) (main_arg2 : FVec F S64x512 .f32) (main_arg3 : FVec F S64x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S64x512 .f32 := Host.absf main_arg1
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  let main_v9 : FVec F S64x512 .f32 := Host.absf main_arg2
  let main_cst_2 : FVec F S_ .f32 := constant S_ .f32 0x7F800000#32
  let main_v10 : FVec F S64x512 .f32 := broadcastInDim S64x512 ![] bcast_S_S64x512 main_cst_2
  let main_v11 : IVec S64x512 1 := cmpf .olt main_v9 main_v10
  let main_c_3 : IVec S_ 1 := constantI S_ 1 1#1
  let main_v12 : IVec S_ 1 := (fun x v => Host.reduce IntOp.andi x v reducesTo_S64x512_S_d0_1 h_S_) main_v11 main_c_3
  let main_v13 : IVec S_ 1 := andi main_v8 main_v12
  let main_v14 : FVec F S64x512 .f32 := Host.absf main_arg3
  let main_cst_4 : FVec F S_ .f32 := constant S_ .f32 0x7F800000#32
  let main_v15 : FVec F S64x512 .f32 := broadcastInDim S64x512 ![] bcast_S_S64x512 main_cst_4
  let main_v16 : IVec S64x512 1 := cmpf .olt main_v14 main_v15
  fn_part1 (F := F) main_v13 main_v16
-- ==== Kernel.lean ====
abbrev S8192x512 : Shape := ⟨2, ![8192, 512]⟩
abbrev S64x512 : Shape := ⟨2, ![64, 512]⟩
abbrev S192x512 : Shape := ⟨2, ![192, 512]⟩
abbrev S8192x64 : Shape := ⟨2, ![8192, 64]⟩
abbrev S1024x512 : Shape := ⟨2, ![1024, 512]⟩
abbrev S1024x64 : Shape := ⟨2, ![1024, 64]⟩
abbrev S1024x192 : Shape := ⟨2, ![1024, 192]⟩
abbrev S256x64 : Shape := ⟨2, ![256, 64]⟩
abbrev S256x8192 : Shape := ⟨2, ![256, 8192]⟩
abbrev S256 : Shape := ⟨1, ![256]⟩
abbrev S256x1 : Shape := ⟨2, ![256, 1]⟩

abbrev nBuf : Space → Nat
  | .hbm => 9
  | .vmem => 15
  | .smem => 0
  | _ => 0

abbrev bufTy : (tb : Table) → Fin (tcTables nBuf tb) → BufTy
  | .hbm, ⟨0, _⟩ => ⟨S8192x512, .f32⟩
  | .hbm, ⟨1, _⟩ => ⟨S64x512, .f32⟩
  | .hbm, ⟨2, _⟩ => ⟨S64x512, .f32⟩
  | .hbm, ⟨3, _⟩ => ⟨S64x512, .f32⟩
  | .hbm, ⟨4, _⟩ => ⟨S192x512, .f32⟩
  | .hbm, ⟨5, _⟩ => ⟨S8192x64, .f32⟩
  | .hbm, ⟨6, _⟩ => ⟨S8192x64, .f32⟩
  | .hbm, ⟨7, _⟩ => ⟨S8192x64, .f32⟩
  | .hbm, ⟨8, _⟩ => ⟨S8192x64, .f32⟩
  | .local _ .vmem, ⟨0, _⟩ => ⟨S1024x512, .f32⟩
  | .local _ .vmem, ⟨1, _⟩ => ⟨S1024x512, .f32⟩
  | .local _ .vmem, ⟨2, _⟩ => ⟨S192x512, .f32⟩
  | .local _ .vmem, ⟨3, _⟩ => ⟨S1024x64, .f32⟩
  | .local _ .vmem, ⟨4, _⟩ => ⟨S1024x64, .f32⟩
  | .local _ .vmem, ⟨5, _⟩ => ⟨S1024x64, .f32⟩
  | .local _ .vmem, ⟨6, _⟩ => ⟨S1024x64, .f32⟩
  | .local _ .vmem, ⟨7, _⟩ => ⟨S1024x64, .f32⟩
  | .local _ .vmem, ⟨8, _⟩ => ⟨S1024x64, .f32⟩
  | .local _ .vmem, ⟨9, _⟩ => ⟨S256x64, .f32⟩
  | .local _ .vmem, ⟨10, _⟩ => ⟨S256x64, .f32⟩
  | .local _ .vmem, ⟨11, _⟩ => ⟨S8192x64, .f32⟩
  | .local _ .vmem, ⟨12, _⟩ => ⟨S8192x64, .f32⟩
  | .local _ .vmem, ⟨13, _⟩ => ⟨S256x64, .f32⟩
  | .local _ .vmem, ⟨14, _⟩ => ⟨S256x64, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S192x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8192x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  concatenates_S64x512_S64x512_S64x512_S192x512_d0 : Shape.Concatenates [S64x512, S64x512, S64x512] S192x512 0
  inb_S1024x512_S1024x512_0_0 : ∀ a, (![0, 0] : Fin 2 → Nat) a + S1024x512.size a ≤ S1024x512.size a
  h_S1024x512 : 0 < S1024x512.numel
  inb_S192x512_S192x512_0_0 : ∀ a, (![0, 0] : Fin 2 → Nat) a + S192x512.size a ≤ S192x512.size a
  h_S192x512 : 0 < S192x512.numel
  shapeCasts_S192x512_S192x512 : S192x512.ShapeCasts S192x512
  slices_S1024x192_o0_0_S1024x64 : S1024x192.Slices ![0, 0] S1024x64
  inb_S1024x64_S1024x64_0_0 : ∀ a, (![0, 0] : Fin 2 → Nat) a + S1024x64.size a ≤ S1024x64.size a
  h_S1024x64 : 0 < S1024x64.numel
  slices_S1024x192_o0_64_S1024x64 : S1024x192.Slices ![0, 64] S1024x64
  slices_S1024x192_o0_128_S1024x64 : S1024x192.Slices ![0, 128] S1024x64
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  reduces_S256x8192_S256 : S256x8192.Reduces [1] S256
  shapeCasts_S256_S256x1 : S256.ShapeCasts S256x1
  broadcasts_S256x1_S256x8192 : S256x1.Broadcasts S256x8192
  broadcasts_S256x1_S256x64 : S256x1.Broadcasts S256x64
  dot_S1024x512_S192x512_S1024x192_1_1_0_0_n_n_wf : DotDims.WF S1024x512 S192x512 S1024x192 [1] [1] [0] [0] [] []
  dot_S256x64_S8192x64_S256x8192_1_1_0_0_n_n_wf : DotDims.WF S256x64 S8192x64 S256x8192 [1] [1] [0] [0] [] []
  dot_S256x8192_S8192x64_S256x64_1_0_0_1_n_n_wf : DotDims.WF S256x8192 S8192x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S192x512.size a ≤ S192x512.size a
  hwx0_1 : ∀ i : grid0.Coords, EltTy.bits .f32 = 32 ∨ (Rect.block (s := S192x512) S192x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S8192x64.size a
  hwx0_2 : ∀ i : grid0.Coords, EltTy.bits .f32 = 32 ∨ (Rect.block (s := S8192x64) S1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S8192x64.size a
  hwx0_3 : ∀ i : grid0.Coords, EltTy.bits .f32 = 32 ∨ (Rect.block (s := S8192x64) S1024x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S8192x64.size a
  hwx0_4 : ∀ i : grid0.Coords, EltTy.bits .f32 = 32 ∨ (Rect.block (s := S8192x64) S1024x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x64.size a ≤ S8192x64.size a
  hwx1_0 : ∀ i : grid1.Coords, EltTy.bits .f32 = 32 ∨ (Rect.block (s := S8192x64) S256x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x64.size a ≤ S8192x64.size a
  hwx1_1 : ∀ i : grid1.Coords, EltTy.bits .f32 = 32 ∨ (Rect.block (s := S8192x64) S8192x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8192x64.size a ≤ S8192x64.size a
  hwx1_2 : ∀ i : grid1.Coords, EltTy.bits .f32 = 32 ∨ (Rect.block (s := S8192x64) S8192x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x64.size a ≤ S8192x64.size a
  hwx1_3 : ∀ i : grid1.Coords, EltTy.bits .f32 = 32 ∨ (Rect.block (s := S8192x64) S256x64.size (cc1_transform_3 i) (hinb1_3 i)).WholeWords (EltTy.packing .f32)

variable [Facts₀]

def dot_S1024x512_S192x512_S1024x192_1_1_0_0_n_n : DotDims S1024x512 S192x512 S1024x192 where
  lhsContracting := [1]
  rhsContracting := [1]
  lhsNonContracting := [0]
  rhsNonContracting := [0]
  lhsBatch := []
  rhsBatch := []
  wf := dot_S1024x512_S192x512_S1024x192_1_1_0_0_n_n_wf
def dot_S256x64_S8192x64_S256x8192_1_1_0_0_n_n : DotDims S256x64 S8192x64 S256x8192 where
  lhsContracting := [1]
  rhsContracting := [1]
  lhsNonContracting := [0]
  rhsNonContracting := [0]
  lhsBatch := []
  rhsBatch := []
  wf := dot_S256x64_S8192x64_S256x8192_1_1_0_0_n_n_wf
def dot_S256x8192_S8192x64_S256x64_1_0_0_1_n_n : DotDims S256x8192 S8192x64 S256x64 where
  lhsContracting := [1]
  rhsContracting := [0]
  lhsNonContracting := [0]
  rhsNonContracting := [1]
  lhsBatch := []
  rhsBatch := []
  wf := dot_S256x8192_S8192x64_S256x64_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S192x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1024x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1024x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S1024x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v1_0) S256x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_1) S8192x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1_2) S8192x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S256x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x512 : Shape := ⟨2, ![8192, 512]⟩
abbrev S64x512 : Shape := ⟨2, ![64, 512]⟩
abbrev S512x64 : Shape := ⟨2, ![512, 64]⟩
abbrev S8192x64 : Shape := ⟨2, ![8192, 64]⟩
abbrev S64x8192 : Shape := ⟨2, ![64, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 31
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S64x512, .f32⟩
  | .hbm, ⟨2, _⟩ => ⟨S64x512, .f32⟩
  | .hbm, ⟨3, _⟩ => ⟨S64x512, .f32⟩
  | .hbm, ⟨4, _⟩ => ⟨S512x64, .f32⟩
  | .hbm, ⟨5, _⟩ => ⟨S8192x64, .f32⟩
  | .hbm, ⟨6, _⟩ => ⟨S512x64, .f32⟩
  | .hbm, ⟨7, _⟩ => ⟨S8192x64, .f32⟩
  | .hbm, ⟨8, _⟩ => ⟨S512x64, .f32⟩
  | .hbm, ⟨9, _⟩ => ⟨S8192x64, .f32⟩
  | .hbm, ⟨10, _⟩ => ⟨S64x8192, .f32⟩
  | .hbm, ⟨11, _⟩ => ⟨S8192x8192, .f32⟩
  | .hbm, ⟨12, _⟩ => ⟨S_, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192, .f32⟩
  | .hbm, ⟨18, _⟩ => ⟨S_, .f32⟩
  | .hbm, ⟨19, _⟩ => ⟨S8192, .f32⟩
  | .hbm, ⟨20, _⟩ => ⟨S8192, .f32⟩
  | .hbm, ⟨21, _⟩ => ⟨S8192x1, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S8192x8192, .f32⟩
  | .hbm, ⟨29, _⟩ => ⟨S8192x8192, .f32⟩
  | .hbm, ⟨30, _⟩ => ⟨S8192x64, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]

class Facts₀ : Prop where
  transposes_S64x512_S512x64_1_0 : S64x512.Transposes [1, 0] S512x64
  transposes_S8192x64_S64x8192_1_0 : S8192x64.Transposes [1, 0] S64x8192
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x512_S512x64_S8192x64_1_0_0_1_n_n_wf : DotDims.WF S8192x512 S512x64 S8192x64 [1] [0] [0] [1] [] []
  dot_S8192x64_S64x8192_S8192x8192_1_0_0_1_n_n_wf : DotDims.WF S8192x64 S64x8192 S8192x8192 [1] [0] [0] [1] [] []
  dot_S8192x8192_S8192x64_S8192x64_1_0_0_1_n_n_wf : DotDims.WF S8192x8192 S8192x64 S8192x64 [1] [0] [0] [1] [] []

variable [Facts₀]

def dot_S8192x512_S512x64_S8192x64_1_0_0_1_n_n : DotDims S8192x512 S512x64 S8192x64 where
  lhsContracting := [1]
  rhsContracting := [0]
  lhsNonContracting := [0]
  rhsNonContracting := [1]
  lhsBatch := []
  rhsBatch := []
  wf := dot_S8192x512_S512x64_S8192x64_1_0_0_1_n_n_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf

class Facts : Prop extends Facts₀ where

variable [Facts]
-- ==== Proof.FrB0.lean ====
/-
  The projection launch, at any float instance, for buffer contents `V` found when it starts: eight grid points, point t
  taking rows 1024·t … 1024·t+1023 of the first operand and the whole stacked weight, and leaving in each of its three
  result blocks a column slice of their product. What each result's staging buffer holds after the body is the body's one
  store into it (a whole-buffer rectangle) over the two loaded blocks; the body reads each result buffer once before
  storing and uses nothing of what it read. The per-point proof data and the body's obligation follow.
-/
import proofs.«176520_j49624052138467_2_alg».proof.Proof.Gen.Kernel.Launch
import proofs.«176520_j49624052138467_2_alg».proof.Proof.Gen.Kernel.Skeleton
import proofs.«176520_j49624052138467_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether fetched there or not (a block that is
    not fetched again has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rX : Rect S1024x512 := Rect.unit (s := S1024x512) ![0, 0] S1024x512.size inb_S1024x512_S1024x512_0_0
abbrev rW : Rect S192x512 := Rect.unit (s := S192x512) ![0, 0] S192x512.size inb_S192x512_S192x512_0_0
abbrev rO : Rect S1024x64 := Rect.unit (s := S1024x64) ![0, 0] S1024x64.size inb_S1024x64_S1024x64_0_0

/-- What the body leaves in each result's staging buffer: its one store, of a column slice of the product of the two loaded blocks. -/
def out0_2 (x0 : Vec F S1024x512 .f32) (x1 : Vec F S192x512 .f32) : Vec F S1024x64 .f32 :=
  View.canon [⟨rO, k0_pay2 (View.ld x0 rX) (View.ld x1 rW)⟩]
def out0_3 (x0 : Vec F S1024x512 .f32) (x1 : Vec F S192x512 .f32) : Vec F S1024x64 .f32 :=
  View.canon [⟨rO, k0_pay3 (View.ld x0 rX) (View.ld x1 rW)⟩]
def out0_4 (x0 : Vec F S1024x512 .f32) (x1 : Vec F S192x512 .f32) : Vec F S1024x64 .f32 :=
  View.canon [⟨rO, k0_pay4 (View.ld x0 rX) (View.ld x1 rW)⟩]

/-- The one store covers the buffer. -/
theorem cover0 (p0 : Vec F S1024x64 .f32) (y : S1024x64.Idx) :
    ∃ pc ∈ ([⟨rO, p0⟩] : List (View.Piece (Elt F) S1024x64 .f32)), y ∈ pc.1.set :=
  View.cover_of_tiled [⟨rO, p0⟩] S1024x64.size (by rfl) y

set_option maxHeartbeats 1000000 in
/-- The body on whole staging memrefs: the two inputs keep their contents, each result ends at its store. -/
theorem sound_kernel0 (c : Dev nD) (E : Set ℕ) (i : grid0.Coords) (arg1 : Memref sig .tc .vmem S1024x512 .f32) (harg1 : arg1.IsWhole)
    (arg2 : Memref sig .tc .vmem S192x512 .f32) (harg2 : arg2.IsWhole) (arg3 : Memref sig .tc .vmem S1024x64 .f32) (harg3 : arg3.IsWhole)
    (arg4 : Memref sig .tc .vmem S1024x64 .f32) (harg4 : arg4.IsWhole) (arg5 : Memref sig .tc .vmem S1024x64 .f32) (harg5 : arg5.IsWhole)
    (x0 : Vec F S1024x512 .f32) (x1 : Vec F S192x512 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)
            ∗ owns (c : Thread nD τ) arg5 fullShare (out0_4 x0 x1)) -∗ K ⟨⟩))
      ⊢ wp frame (wpE (defs₀ (F := F)) Variants.none c none) E (cc0__proj_kernel i arg1 harg1 arg2 harg2 arg3 harg3 arg4 harg4 arg5 harg5) K := by
  simp only [cc0__proj_kernel_eq_skeleton]; unfold cc0__proj_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  isplitl [H3]
  · iexists _; isplitr
    swap; · iexact H3
    ipureintro
    exact View.read_writes_eq_canon _ _ _ (cover0 _)
  iexists _; isplitr
  swap; · iexact H4
  ipureintro
  exact View.read_writes_eq_canon _ _ _ (cover0 _)

/-- The launch's proof data on core `c`: the arrays as found; after the body each input's buffer at its block and each result's at
    its store over the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.FrB1.lean ====
/-
  The attention launch, at any float instance, for buffer contents `V` found when it starts: thirty-two grid points, point t
  taking rows 256·t … 256·t+255 of the queries and the whole key and value arrays (fetched once, at the first point, and kept),
  and leaving in its result block the attention of those rows. What the result's staging buffer holds after the body is the
  body's one store (a whole-buffer rectangle) over the three loaded blocks; the body reads the result buffer once before storing
  and uses nothing of what it read. The per-point proof data and the body's obligation follow.
-/
import proofs.«176520_j49624052138467_2_alg».proof.Proof.Gen.Kernel.Launch
import proofs.«176520_j49624052138467_2_alg».proof.Proof.Gen.Kernel.Skeleton
import proofs.«176520_j49624052138467_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether fetched there or not (a block that is
    not fetched again has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev rQ : Rect S256x64 := Rect.unit (s := S256x64) ![0, 0] S256x64.size inb_S256x64_S256x64_0_0
abbrev rKV : Rect S8192x64 := Rect.unit (s := S8192x64) ![0, 0] S8192x64.size inb_S8192x64_S8192x64_0_0

/-- What the body leaves in the result's staging buffer: its one store, the attention of the loaded query rows against the loaded keys and values. -/
def out1_3 (x0 : Vec F S256x64 .f32) (x1 x2 : Vec F S8192x64 .f32) : Vec F S256x64 .f32 :=
  View.canon [⟨rQ, k1_pay1 (View.ld x0 rQ) (View.ld x1 rKV) (View.ld x2 rKV)⟩]

/-- The one store covers the buffer. -/
theorem cover1 (p0 : Vec F S256x64 .f32) (y : S256x64.Idx) :
    ∃ pc ∈ ([⟨rQ, p0⟩] : List (View.Piece (Elt F) S256x64 .f32)), y ∈ pc.1.set :=
  View.cover_of_tiled [⟨rQ, p0⟩] S256x64.size (by rfl) y

set_option maxHeartbeats 1000000 in
/-- The body on whole staging memrefs: the three inputs keep their contents, the result ends at its store. -/
theorem sound_kernel1 (c : Dev nD) (E : Set ℕ) (i : grid1.Coords) (arg1 : Memref sig .tc .vmem S256x64 .f32) (harg1 : arg1.IsWhole)
    (arg2 : Memref sig .tc .vmem S8192x64 .f32) (harg2 : arg2.IsWhole) (arg3 : Memref sig .tc .vmem S8192x64 .f32) (harg3 : arg3.IsWhole)
    (arg4 : Memref sig .tc .vmem S256x64 .f32) (harg4 : arg4.IsWhole)
    (x0 : Vec F S256x64 .f32) (x1 x2 : Vec F S8192x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__attn_kernel i arg1 harg1 arg2 harg2 arg3 harg3 arg4 harg4) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _)

/-- The launch's proof data on core `c`: the arrays as found; after the body each input's buffer at its block and the result's at
    its store over the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.FrBRun.lean ====
/-
  The whole program's run, at any float instance: the host concatenation, the projection launch, the attention launch.
  The buffer contents at each boundary are a fold from the launch memory: after the host line; after the first launch (its
  three result arrays at what its write-backs leave, every other buffer as before); after the second launch (its result
  array at what its write-backs leave). Every execution terminates with every unscoped buffer at the last of these; the four
  argument arrays walk back through the fold to the launch memory (no line writes one), which is the frame.
-/
import proofs.«176520_j49624052138467_2_alg».proof.Proof.Gen.Kernel.Launch
import proofs.«176520_j49624052138467_2_alg».proof.Proof.Gen.Kernel.Skeleton
import proofs.«176520_j49624052138467_2_alg».proof.Proof.Gen.Kernel.Points
import proofs.«176520_j49624052138467_2_alg».proof.Proof.FrB0
import proofs.«176520_j49624052138467_2_alg».proof.Proof.FrB1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host concatenation (the first launch's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first launch: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second launch: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- The host line writes the stacked weight only. -/
theorem W1_of_ne (c : Dev nD) (b : Ref sig .tc) (hb : b ≠ main_v0) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.nary_writes, Finset.mem_singleton]
    exact StableHlo.devRef_ne_of_ne hb))

/-! ### The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of_ne m ρ c main_arg0 (by decide)
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_of_ne m ρ c main_arg1 (by decide)
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of_ne m ρ c main_arg2 (by decide)
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_of_ne m ρ c main_arg3 (by decide)
    _ = m ((c : Thread nD τ).loc main_arg3) := rfl

/-! ## The proof data family and the thread state -/

abbrev adm : (p : Fin 2) → (pcfgs (F := F) p).Adm := fun p => (cfgs p).toPCfg_adm
/-- Each launch's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The host line allocates no buffer. -/
theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The launches as segments -/

set_option backward.isDefEq.respectTransparency.types false in
/-- The projection launch over the thread state: entered with every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention launch over the thread state: entered with every unscoped buffer at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- Every weakly fair execution terminates, nothing faulting, with every unscoped buffer at the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

end Cert.Kernel.Fr

end
-- ==== Proof.FrI0.lean ====
/-
  The projection launch, at any float instance, for buffer contents `V` found when it starts: eight grid points, point t
  taking rows 1024·t … 1024·t+1023 of the first operand and the whole stacked weight, and leaving in each of its three
  result blocks a column slice of their product. What each result's staging buffer holds after the body is the body's one
  store into it (a whole-buffer rectangle) over the two loaded blocks; the body reads each result buffer once before
  storing and uses nothing of what it read. The per-point proof data and the body's obligation follow.
-/
import proofs.«176520_j49624052138467_2_alg».proof.Proof.Gen.KernelIdeal.Launch
import proofs.«176520_j49624052138467_2_alg».proof.Proof.Gen.KernelIdeal.Skeleton
import proofs.«176520_j49624052138467_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether fetched there or not (a block that is
    not fetched again has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rX : Rect S1024x512 := Rect.unit (s := S1024x512) ![0, 0] S1024x512.size inb_S1024x512_S1024x512_0_0
abbrev rW : Rect S192x512 := Rect.unit (s := S192x512) ![0, 0] S192x512.size inb_S192x512_S192x512_0_0
abbrev rO : Rect S1024x64 := Rect.unit (s := S1024x64) ![0, 0] S1024x64.size inb_S1024x64_S1024x64_0_0

/-- What the body leaves in each result's staging buffer: its one store, of a column slice of the product of the two loaded blocks. -/
def out0_2 (x0 : Vec F S1024x512 .f32) (x1 : Vec F S192x512 .f32) : Vec F S1024x64 .f32 :=
  View.canon [⟨rO, k0_pay2 (View.ld x0 rX) (View.ld x1 rW)⟩]
def out0_3 (x0 : Vec F S1024x512 .f32) (x1 : Vec F S192x512 .f32) : Vec F S1024x64 .f32 :=
  View.canon [⟨rO, k0_pay3 (View.ld x0 rX) (View.ld x1 rW)⟩]
def out0_4 (x0 : Vec F S1024x512 .f32) (x1 : Vec F S192x512 .f32) : Vec F S1024x64 .f32 :=
  View.canon [⟨rO, k0_pay4 (View.ld x0 rX) (View.ld x1 rW)⟩]

/-- The one store covers the buffer. -/
theorem cover0 (p0 : Vec F S1024x64 .f32) (y : S1024x64.Idx) :
    ∃ pc ∈ ([⟨rO, p0⟩] : List (View.Piece (Elt F) S1024x64 .f32)), y ∈ pc.1.set :=
  View.cover_of_tiled [⟨rO, p0⟩] S1024x64.size (by rfl) y

set_option maxHeartbeats 1000000 in
/-- The body on whole staging memrefs: the two inputs keep their contents, each result ends at its store. -/
theorem sound_kernel0 (c : Dev nD) (E : Set ℕ) (i : grid0.Coords) (arg1 : Memref sig .tc .vmem S1024x512 .f32) (harg1 : arg1.IsWhole)
    (arg2 : Memref sig .tc .vmem S192x512 .f32) (harg2 : arg2.IsWhole) (arg3 : Memref sig .tc .vmem S1024x64 .f32) (harg3 : arg3.IsWhole)
    (arg4 : Memref sig .tc .vmem S1024x64 .f32) (harg4 : arg4.IsWhole) (arg5 : Memref sig .tc .vmem S1024x64 .f32) (harg5 : arg5.IsWhole)
    (x0 : Vec F S1024x512 .f32) (x1 : Vec F S192x512 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)
            ∗ owns (c : Thread nD τ) arg5 fullShare (out0_4 x0 x1)) -∗ K ⟨⟩))
      ⊢ wp frame (wpE (defs₀ (F := F)) Variants.none c none) E (cc0__proj_kernel i arg1 harg1 arg2 harg2 arg3 harg3 arg4 harg4 arg5 harg5) K := by
  simp only [cc0__proj_kernel_eq_skeleton]; unfold cc0__proj_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  isplitl [H3]
  · iexists _; isplitr
    swap; · iexact H3
    ipureintro
    exact View.read_writes_eq_canon _ _ _ (cover0 _)
  iexists _; isplitr
  swap; · iexact H4
  ipureintro
  exact View.read_writes_eq_canon _ _ _ (cover0 _)

/-- The launch's proof data on core `c`: the arrays as found; after the body each input's buffer at its block and each result's at
    its store over the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.FrI1.lean ====
/-
  The attention launch, at any float instance, for buffer contents `V` found when it starts: thirty-two grid points, point t
  taking rows 256·t … 256·t+255 of the queries and the whole key and value arrays (fetched once, at the first point, and kept),
  and leaving in its result block the attention of those rows. What the result's staging buffer holds after the body is the
  body's one store (a whole-buffer rectangle) over the three loaded blocks; the body reads the result buffer once before storing
  and uses nothing of what it read. The per-point proof data and the body's obligation follow.
-/
import proofs.«176520_j49624052138467_2_alg».proof.Proof.Gen.KernelIdeal.Launch
import proofs.«176520_j49624052138467_2_alg».proof.Proof.Gen.KernelIdeal.Skeleton
import proofs.«176520_j49624052138467_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether fetched there or not (a block that is
    not fetched again has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev rQ : Rect S256x64 := Rect.unit (s := S256x64) ![0, 0] S256x64.size inb_S256x64_S256x64_0_0
abbrev rKV : Rect S8192x64 := Rect.unit (s := S8192x64) ![0, 0] S8192x64.size inb_S8192x64_S8192x64_0_0

/-- What the body leaves in the result's staging buffer: its one store, the attention of the loaded query rows against the loaded keys and values. -/
def out1_3 (x0 : Vec F S256x64 .f32) (x1 x2 : Vec F S8192x64 .f32) : Vec F S256x64 .f32 :=
  View.canon [⟨rQ, k1_pay1 (View.ld x0 rQ) (View.ld x1 rKV) (View.ld x2 rKV)⟩]

/-- The one store covers the buffer. -/
theorem cover1 (p0 : Vec F S256x64 .f32) (y : S256x64.Idx) :
    ∃ pc ∈ ([⟨rQ, p0⟩] : List (View.Piece (Elt F) S256x64 .f32)), y ∈ pc.1.set :=
  View.cover_of_tiled [⟨rQ, p0⟩] S256x64.size (by rfl) y

set_option maxHeartbeats 1000000 in
/-- The body on whole staging memrefs: the three inputs keep their contents, the result ends at its store. -/
theorem sound_kernel1 (c : Dev nD) (E : Set ℕ) (i : grid1.Coords) (arg1 : Memref sig .tc .vmem S256x64 .f32) (harg1 : arg1.IsWhole)
    (arg2 : Memref sig .tc .vmem S8192x64 .f32) (harg2 : arg2.IsWhole) (arg3 : Memref sig .tc .vmem S8192x64 .f32) (harg3 : arg3.IsWhole)
    (arg4 : Memref sig .tc .vmem S256x64 .f32) (harg4 : arg4.IsWhole)
    (x0 : Vec F S256x64 .f32) (x1 x2 : Vec F S8192x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__attn_kernel i arg1 harg1 arg2 harg2 arg3 harg3 arg4 harg4) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _)

/-- The launch's proof data on core `c`: the arrays as found; after the body each input's buffer at its block and the result's at
    its store over the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.FrIRun.lean ====
/-
  The whole program's run, at any float instance: the host concatenation, the projection launch, the attention launch.
  The buffer contents at each boundary are a fold from the launch memory: after the host line; after the first launch (its
  three result arrays at what its write-backs leave, every other buffer as before); after the second launch (its result
  array at what its write-backs leave). Every execution terminates with every unscoped buffer at the last of these; the four
  argument arrays walk back through the fold to the launch memory (no line writes one), which is the frame.
-/
import proofs.«176520_j49624052138467_2_alg».proof.Proof.Gen.KernelIdeal.Launch
import proofs.«176520_j49624052138467_2_alg».proof.Proof.Gen.KernelIdeal.Skeleton
import proofs.«176520_j49624052138467_2_alg».proof.Proof.Gen.KernelIdeal.Points
import proofs.«176520_j49624052138467_2_alg».proof.Proof.FrI0
import proofs.«176520_j49624052138467_2_alg».proof.Proof.FrI1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host concatenation (the first launch's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first launch: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second launch: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- The host line writes the stacked weight only. -/
theorem W1_of_ne (c : Dev nD) (b : Ref sig .tc) (hb : b ≠ main_v0) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.nary_writes, Finset.mem_singleton]
    exact StableHlo.devRef_ne_of_ne hb))

/-! ### The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of_ne m ρ c main_arg0 (by decide)
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_of_ne m ρ c main_arg1 (by decide)
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of_ne m ρ c main_arg2 (by decide)
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_of_ne m ρ c main_arg3 (by decide)
    _ = m ((c : Thread nD τ).loc main_arg3) := rfl

/-! ## The proof data family and the thread state -/

abbrev adm : (p : Fin 2) → (pcfgs (F := F) p).Adm := fun p => (cfgs p).toPCfg_adm
/-- Each launch's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The host line allocates no buffer. -/
theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The launches as segments -/

set_option backward.isDefEq.respectTransparency.types false in
/-- The projection launch over the thread state: entered with every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention launch over the thread state: entered with every unscoped buffer at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- Every weakly fair execution terminates, nothing faulting, with every unscoped buffer at the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

end Cert.KernelIdeal.Fr

end
-- ==== Proof.Val0.lean ====
/-
  The projection launch's result arrays, whole. The launch has eight points; point t takes rows 1024·t … 1024·t+1023 of
  the first operand A and the whole stacked weight W (192 rows), and writes back rows 1024·t … 1024·t+1023 of each of three
  results. Given that the body's value at row r, column e of a result block is the inner product of row r of its operand
  block with row (offset + e) of W, each result array ends holding, at row i and column e, the inner product of row i of A
  with row (offset + e) of W: every row i lies in exactly the block of point i / 1024, at row i % 1024 of it.
-/
import proofs.«176520_j49624052138467_2_alg».proof.Proof.FrI0
import Idealize.ShloMosaic.Lib.Pipeline.Value
import Idealize.ShloMosaic.Lib.ValueIdx

noncomputable section

namespace Cert.KernelIdeal.Val

open Cert.KernelIdeal Cert.KernelIdeal.Gen Cert.KernelIdeal.Fr Idealize.ShloMosaic Idealize.ShloMosaic.ValueIdx
open Idealize.ShloMosaic.TcCoe Idealize.SL.Sem
open Idealize.ShloMosaic.Pipeline (Dat)
open scoped BigOperators

variable (V : (c : Dev nD) → (b : Ref sig .tc) → Buf (Elt Ideal) ((c : Thread nD τ).loc b))

/-! The auxiliary lemmas, in a namespace of their own. -/
namespace Proj

/-- The zero offsets of a whole-buffer rectangle. -/
theorem hz : (![0, 0] : Fin 2 → Nat) = fun _ => 0 := funext fun a => by fin_cases a <;> rfl

/-- Row `i` of `A` against row `col e` of `W`, at every row `i` and column `e`. -/
abbrev rowsDot (col : Fin 64 → Fin 192) (A : S8192x512.Idx → EReal) (W : S192x512.Idx → EReal) : S8192x64.Idx → EReal :=
  fun y => ∑ k : Fin 512, A (ix2 (⟨(y 0).val, (y 0).isLt⟩ : Fin 8192) k) * W (ix2 (col ⟨(y 1).val, (y 1).isLt⟩) k)

/-- One element of a result block: when the operand block's row `j 0` is row `i 0` of `A`, the weight block is `W`, and
    the columns agree, the body's value at `j` is `rowsDot` at `i`. -/
theorem pay_at (pay : Vec Ideal S1024x512 .f32 → Vec Ideal S192x512 .f32 → Vec Ideal S1024x64 .f32) (col : Fin 64 → Fin 192)
    (hpay : ∀ (x0 : Vec Ideal S1024x512 .f32) (x1 : Vec Ideal S192x512 .f32) (r : Fin 1024) (e : Fin 64),
      pay x0 x1 (ix2 r e) = ∑ k : Fin 512, x0 (ix2 r k) * x1 (ix2 (col e) k))
    (A : S8192x512.Idx → EReal) (W : S192x512.Idx → EReal)
    (x0 : Vec Ideal S1024x512 .f32) (x1 : Vec Ideal S192x512 .f32) (j : S1024x64.Idx) (i : S8192x64.Idx)
    (hx0 : ∀ k : Fin 512, x0 (ix2 (j 0) k) = A (ix2 (⟨(i 0).val, (i 0).isLt⟩ : Fin 8192) k))
    (hx1 : ∀ (e : Fin 192) (k : Fin 512), x1 (ix2 e k) = W (ix2 e k))
    (hi1 : (i 1).val = (j 1).val) :
    pay x0 x1 j = rowsDot col A W i := by
  have h := hpay x0 x1 (j 0) (j 1)
  refine (congrArg (pay x0 x1) (eq_ix2 j)).trans (h.trans ?_)
  have hc : (⟨(i 1).val, (i 1).isLt⟩ : Fin 64) = j 1 := Fin.ext hi1
  show _ = ∑ k : Fin 512, A (ix2 (⟨(i 0).val, (i 0).isLt⟩ : Fin 8192) k) * W (ix2 (col ⟨(i 1).val, (i 1).isLt⟩) k)
  rw [hc]
  exact Finset.sum_congr rfl fun k _ => by rw [hx0, hx1]

/-- The printed index maps over the grid: point `t` takes block `t` of the operand's rows and of each result's rows, and
    the one block of the weight. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The operand's block at point `t`, row `r`, is row 1024·t + r of the array. -/
theorem iblk0_0_apply (c : Dev nD) (t : Fin cfg0.N) (r : Fin 1024) (k : Fin 512) (i0 : Fin 8192) (hi0 : i0.val = t.val * 1024 + r.val) :
    (iblk0 V c 0 t : Vec Ideal S1024x512 .f32) (ix2 r k) = (V c main_arg0 : S8192x512.Idx → EReal) (ix2 i0 k) := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 1024 + 1 * r.val = i0.val; omega
  | ⟨1, _⟩ => show win0_0.index t (1 : Fin 2) * 512 + 1 * k.val = k.val; omega

/-- The weight's block at every point is the whole array. -/
theorem iblk0_1_apply (c : Dev nD) (t : Fin cfg0.N) (e : Fin 192) (k : Fin 512) :
    (iblk0 V c 1 t : Vec Ideal S192x512 .f32) (ix2 e k) = (V c main_v0 : S192x512.Idx → EReal) (ix2 e k) := by
  obtain ⟨-, -, e0, e1, -⟩ := idx_facts t
  unfold iblk0
  rw [View.read_apply]
  show V c main_v0 _ = V c main_v0 _
  congr 1
  funext a
  apply Fin.ext
  match a with
  | ⟨0, _⟩ => show win0_1.index t (0 : Fin 2) * 192 + 1 * e.val = e.val; omega
  | ⟨1, _⟩ => show win0_1.index t (1 : Fin 2) * 512 + 1 * k.val = k.val; omega

/-! ## Result 0: rows 0 … 63 of the weight -/

/-- What point `t` writes back to result 0 is block `t` of the whole product. -/
theorem flushed0_2_eq (c : Dev nD)
    (hpay : ∀ (x0 : Vec Ideal S1024x512 .f32) (x1 : Vec Ideal S192x512 .f32) (r : Fin 1024) (e : Fin 64),
      k0_pay2 (F := Ideal) x0 x1 (ix2 r e) = ∑ k : Fin 512, x0 (ix2 r k) * x1 (ix2 (⟨e.val, by omega⟩ : Fin 192) k))
    (t : Fin cfg0.N) :
    (dat0 V c).flushed 2 t
      = ((cfg0.win 2).blk t).view.read (Elt Ideal) (rowsDot (fun e : Fin 64 => (⟨e.val, by omega⟩ : Fin 192)) (V c main_arg0) (V c main_v0)) := by
  show (cfg0.win 2).cut (grid0.coords t) ((dat0 V c).after 2 t) = _
  rw [after0_2]
  unfold out0_2
  rw [View.canon_unit_zero hz]
  simp only [View.ld_unit_zero (S := S1024x512) hz, View.ld_unit_zero (S := S192x512) hz]
  obtain ⟨-, -, -, -, e0, e1, -⟩ := idx_facts t
  have hN : grid0.N = 8 := N_0
  have ht : t.val < 8 := lt_of_lt_of_eq t.isLt (show cfg0.N = 8 from N_0)
  funext j
  show k0_pay2 (F := Ideal) (iblk0 V c 0 t) (iblk0 V c 1 t) j
    = rowsDot (fun e : Fin 64 => (⟨e.val, by omega⟩ : Fin 192)) (V c main_arg0) (V c main_v0) (((cfg0.win 2).blk t).view.emb j)
  have hj0 : (j 0).val < 1024 := (j 0).isLt
  have hj1 : (j 1).val < 64 := (j 1).isLt
  have hm0 : ((((cfg0.win 2).blk t).view.emb j) 0).val = win0_2.index t (0 : Fin 2) * 1024 + 1 * (j 0).val := rfl
  have hm1 : ((((cfg0.win 2).blk t).view.emb j) 1).val = win0_2.index t (1 : Fin 2) * 64 + 1 * (j 1).val := rfl
  refine pay_at (k0_pay2 (F := Ideal)) (fun e : Fin 64 => (⟨e.val, by omega⟩ : Fin 192)) hpay (V c main_arg0) (V c main_v0) (iblk0 V c 0 t) (iblk0 V c 1 t) j _ ?_ ?_ ?_
  · intro k
    exact iblk0_0_apply V c t (j 0) k _ (by show _ = _; rw [hm0]; omega)
  · intro e k
    exact iblk0_1_apply V c t e k
  · rw [hm1]; omega

/-- An index of result 0 is in point `t`'s block iff each coordinate is in the block's range on its axis. -/
theorem mem_blk0_2 (t : Fin cfg0.N) (i : S8192x64.Idx) :
    i ∈ ((cfg0.win 2).blk t).view.set ↔ ∀ a : Fin 2, win0_2.index t a * S1024x64.size a ≤ (i a).val ∧ (i a).val < win0_2.index t a * S1024x64.size a + S1024x64.size a := by
  show i ∈ ((View.whole main_v1_0).slice (win0_2.rect t)).set ↔ _
  rw [View.set_slice_whole, Rect.mem_set_unit]
  exact Iff.rfl

/-- Every index of result 0 is in the block of the point its row falls in. -/
theorem cover0_2 (i : S8192x64.Idx) : ∃ t : Fin cfg0.N, (cfg0.win 2).flush t = true ∧ i ∈ ((cfg0.win 2).blk t).view.set := by
  have hN : grid0.N = 8 := N_0
  have hi0 : (i 0).val < 8192 := (i 0).isLt
  have hi1 : (i 1).val < 64 := (i 1).isLt
  refine ⟨⟨(i 0).val / 1024, by rw [show cfg0.N = 8 from N_0]; omega⟩, flush0_2 _, ?_⟩
  rw [mem_blk0_2]
  obtain ⟨-, -, -, -, e0, e1, -⟩ := idx_facts ⟨(i 0).val / 1024, by rw [show cfg0.N = 8 from N_0]; omega⟩
  intro a
  match a with
  | ⟨0, _⟩ =>
    show win0_2.index _ (0 : Fin 2) * 1024 ≤ (i 0).val ∧ (i 0).val < win0_2.index _ (0 : Fin 2) * 1024 + 1024
    rw [e0]; show (i 0).val / 1024 * 1024 ≤ (i 0).val ∧ (i 0).val < (i 0).val / 1024 * 1024 + 1024; omega
  | ⟨1, _⟩ =>
    show win0_2.index _ (1 : Fin 2) * 64 ≤ (i 1).val ∧ (i 1).val < win0_2.index _ (1 : Fin 2) * 64 + 64
    rw [e1]; omega

/-! ## Result 1: rows 64 … 127 of the weight -/

/-- What point `t` writes back to result 1 is block `t` of the whole product. -/
theorem flushed0_3_eq (c : Dev nD)
    (hpay : ∀ (x0 : Vec Ideal S1024x512 .f32) (x1 : Vec Ideal S192x512 .f32) (r : Fin 1024) (e : Fin 64),
      k0_pay3 (F := Ideal) x0 x1 (ix2 r e) = ∑ k : Fin 512, x0 (ix2 r k) * x1 (ix2 (⟨64 + e.val, by omega⟩ : Fin 192) k))
    (t : Fin cfg0.N) :
    (dat0 V c).flushed 3 t
      = ((cfg0.win 3).blk t).view.read (Elt Ideal) (rowsDot (fun e : Fin 64 => (⟨64 + e.val, by omega⟩ : Fin 192)) (V c main_arg0) (V c main_v0)) := by
  show (cfg0.win 3).cut (grid0.coords t) ((dat0 V c).after 3 t) = _
  rw [after0_3]
  unfold out0_3
  rw [View.canon_unit_zero hz]
  simp only [View.ld_unit_zero (S := S1024x512) hz, View.ld_unit_zero (S := S192x512) hz]
  obtain ⟨-, -, -, -, -, -, e0, e1, -⟩ := idx_facts t
  have hN : grid0.N = 8 := N_0
  have ht : t.val < 8 := lt_of_lt_of_eq t.isLt (show cfg0.N = 8 from N_0)
  funext j
  show k0_pay3 (F := Ideal) (iblk0 V c 0 t) (iblk0 V c 1 t) j
    = rowsDot (fun e : Fin 64 => (⟨64 + e.val, by omega⟩ : Fin 192)) (V c main_arg0) (V c main_v0) (((cfg0.win 3).blk t).view.emb j)
  have hj0 : (j 0).val < 1024 := (j 0).isLt
  have hj1 : (j 1).val < 64 := (j 1).isLt
  have hm0 : ((((cfg0.win 3).blk t).view.emb j) 0).val = win0_3.index t (0 : Fin 2) * 1024 + 1 * (j 0).val := rfl
  have hm1 : ((((cfg0.win 3).blk t).view.emb j) 1).val = win0_3.index t (1 : Fin 2) * 64 + 1 * (j 1).val := rfl
  refine pay_at (k0_pay3 (F := Ideal)) (fun e : Fin 64 => (⟨64 + e.val, by omega⟩ : Fin 192)) hpay (V c main_arg0) (V c main_v0) (iblk0 V c 0 t) (iblk0 V c 1 t) j _ ?_ ?_ ?_
  · intro k
    exact iblk0_0_apply V c t (j 0) k _ (by show _ = _; rw [hm0]; omega)
  · intro e k
    exact iblk0_1_apply V c t e k
  · rw [hm1]; omega

/-- An index of result 1 is in point `t`'s block iff each coordinate is in the block's range on its axis. -/
theorem mem_blk0_3 (t : Fin cfg0.N) (i : S8192x64.Idx) :
    i ∈ ((cfg0.win 3).blk t).view.set ↔ ∀ a : Fin 2, win0_3.index t a * S1024x64.size a ≤ (i a).val ∧ (i a).val < win0_3.index t a * S1024x64.size a + S1024x64.size a := by
  show i ∈ ((View.whole main_v1_1).slice (win0_3.rect t)).set ↔ _
  rw [View.set_slice_whole, Rect.mem_set_unit]
  exact Iff.rfl

/-- Every index of result 1 is in the block of the point its row falls in. -/
theorem cover0_3 (i : S8192x64.Idx) : ∃ t : Fin cfg0.N, (cfg0.win 3).flush t = true ∧ i ∈ ((cfg0.win 3).blk t).view.set := by
  have hN : grid0.N = 8 := N_0
  have hi0 : (i 0).val < 8192 := (i 0).isLt
  have hi1 : (i 1).val < 64 := (i 1).isLt
  refine ⟨⟨(i 0).val / 1024, by rw [show cfg0.N = 8 from N_0]; omega⟩, flush0_3 _, ?_⟩
  rw [mem_blk0_3]
  obtain ⟨-, -, -, -, -, -, e0, e1, -⟩ := idx_facts ⟨(i 0).val / 1024, by rw [show cfg0.N = 8 from N_0]; omega⟩
  intro a
  match a with
  | ⟨0, _⟩ =>
    show win0_3.index _ (0 : Fin 2) * 1024 ≤ (i 0).val ∧ (i 0).val < win0_3.index _ (0 : Fin 2) * 1024 + 1024
    rw [e0]; show (i 0).val / 1024 * 1024 ≤ (i 0).val ∧ (i 0).val < (i 0).val / 1024 * 1024 + 1024; omega
  | ⟨1, _⟩ =>
    show win0_3.index _ (1 : Fin 2) * 64 ≤ (i 1).val ∧ (i 1).val < win0_3.index _ (1 : Fin 2) * 64 + 64
    rw [e1]; omega

/-! ## Result 2: rows 128 … 191 of the weight -/

/-- What point `t` writes back to result 2 is block `t` of the whole product. -/
theorem flushed0_4_eq (c : Dev nD)
    (hpay : ∀ (x0 : Vec Ideal S1024x512 .f32) (x1 : Vec Ideal S192x512 .f32) (r : Fin 1024) (e : Fin 64),
      k0_pay4 (F := Ideal) x0 x1 (ix2 r e) = ∑ k : Fin 512, x0 (ix2 r k) * x1 (ix2 (⟨128 + e.val, by omega⟩ : Fin 192) k))
    (t : Fin cfg0.N) :
    (dat0 V c).flushed 4 t
      = ((cfg0.win 4).blk t).view.read (Elt Ideal) (rowsDot (fun e : Fin 64 => (⟨128 + e.val, by omega⟩ : Fin 192)) (V c main_arg0) (V c main_v0)) := by
  show (cfg0.win 4).cut (grid0.coords t) ((dat0 V c).after 4 t) = _
  rw [after0_4]
  unfold out0_4
  rw [View.canon_unit_zero hz]
  simp only [View.ld_unit_zero (S := S1024x512) hz, View.ld_unit_zero (S := S192x512) hz]
  obtain ⟨-, -, -, -, -, -, -, -, e0, e1⟩ := idx_facts t
  have hN : grid0.N = 8 := N_0
  have ht : t.val < 8 := lt_of_lt_of_eq t.isLt (show cfg0.N = 8 from N_0)
  funext j
  show k0_pay4 (F := Ideal) (iblk0 V c 0 t) (iblk0 V c 1 t) j
    = rowsDot (fun e : Fin 64 => (⟨128 + e.val, by omega⟩ : Fin 192)) (V c main_arg0) (V c main_v0) (((cfg0.win 4).blk t).view.emb j)
  have hj0 : (j 0).val < 1024 := (j 0).isLt
  have hj1 : (j 1).val < 64 := (j 1).isLt
  have hm0 : ((((cfg0.win 4).blk t).view.emb j) 0).val = win0_4.index t (0 : Fin 2) * 1024 + 1 * (j 0).val := rfl
  have hm1 : ((((cfg0.win 4).blk t).view.emb j) 1).val = win0_4.index t (1 : Fin 2) * 64 + 1 * (j 1).val := rfl
  refine pay_at (k0_pay4 (F := Ideal)) (fun e : Fin 64 => (⟨128 + e.val, by omega⟩ : Fin 192)) hpay (V c main_arg0) (V c main_v0) (iblk0 V c 0 t) (iblk0 V c 1 t) j _ ?_ ?_ ?_
  · intro k
    exact iblk0_0_apply V c t (j 0) k _ (by show _ = _; rw [hm0]; omega)
  · intro e k
    exact iblk0_1_apply V c t e k
  · rw [hm1]; omega

/-- An index of result 2 is in point `t`'s block iff each coordinate is in the block's range on its axis. -/
theorem mem_blk0_4 (t : Fin cfg0.N) (i : S8192x64.Idx) :
    i ∈ ((cfg0.win 4).blk t).view.set ↔ ∀ a : Fin 2, win0_4.index t a * S1024x64.size a ≤ (i a).val ∧ (i a).val < win0_4.index t a * S1024x64.size a + S1024x64.size a := by
  show i ∈ ((View.whole main_v1_2).slice (win0_4.rect t)).set ↔ _
  rw [View.set_slice_whole, Rect.mem_set_unit]
  exact Iff.rfl

/-- Every index of result 2 is in the block of the point its row falls in. -/
theorem cover0_4 (i : S8192x64.Idx) : ∃ t : Fin cfg0.N, (cfg0.win 4).flush t = true ∧ i ∈ ((cfg0.win 4).blk t).view.set := by
  have hN : grid0.N = 8 := N_0
  have hi0 : (i 0).val < 8192 := (i 0).isLt
  have hi1 : (i 1).val < 64 := (i 1).isLt
  refine ⟨⟨(i 0).val / 1024, by rw [show cfg0.N = 8 from N_0]; omega⟩, flush0_4 _, ?_⟩
  rw [mem_blk0_4]
  obtain ⟨-, -, -, -, -, -, -, -, e0, e1⟩ := idx_facts ⟨(i 0).val / 1024, by rw [show cfg0.N = 8 from N_0]; omega⟩
  intro a
  match a with
  | ⟨0, _⟩ =>
    show win0_4.index _ (0 : Fin 2) * 1024 ≤ (i 0).val ∧ (i 0).val < win0_4.index _ (0 : Fin 2) * 1024 + 1024
    rw [e0]; show (i 0).val / 1024 * 1024 ≤ (i 0).val ∧ (i 0).val < (i 0).val / 1024 * 1024 + 1024; omega
  | ⟨1, _⟩ =>
    show win0_4.index _ (1 : Fin 2) * 64 ≤ (i 1).val ∧ (i 1).val < win0_4.index _ (1 : Fin 2) * 64 + 64
    rw [e1]; omega

end Proj

open Proj

/-! ## The three result arrays -/

/-- Result 0 after the launch: row `i` of the operand against row `e` of the weight, at every (i, e). -/
theorem final0_2 (c : Dev nD)
    (hpay : ∀ (x0 : Vec Ideal S1024x512 .f32) (x1 : Vec Ideal S192x512 .f32) (r : Fin 1024) (e : Fin 64),
      k0_pay2 (F := Ideal) x0 x1 (ix2 r e) = ∑ k : Fin 512, x0 (ix2 r k) * x1 (ix2 (⟨e.val, by omega⟩ : Fin 192) k))
    (A : S8192x512.Idx → EReal) (W : S192x512.Idx → EReal) (hA : A = V c main_arg0) (hW : W = V c main_v0) :
    (dat0 V c).arrAt 2 cfg0.N = fun y : S8192x64.Idx => ∑ k : Fin 512, A (ix2 (⟨(y 0).val, (y 0).isLt⟩ : Fin 8192) k) * W (ix2 (⟨(y 1).val, by have h : (y 1).val < 64 := (y 1).isLt; omega⟩ : Fin 192) k) := by
  subst hA hW
  exact (dat0 V c).arrAt_eq_of_cover 2 (rowsDot (fun e : Fin 64 => (⟨e.val, by omega⟩ : Fin 192)) (V c main_arg0) (V c main_v0))
    (fun t _ => flushed0_2_eq V c hpay t) (cover0_2)
/-- Result 1 after the launch: row `i` of the operand against row 64 + `e` of the weight, at every (i, e). -/
theorem final0_3 (c : Dev nD)
    (hpay : ∀ (x0 : Vec Ideal S1024x512 .f32) (x1 : Vec Ideal S192x512 .f32) (r : Fin 1024) (e : Fin 64),
      k0_pay3 (F := Ideal) x0 x1 (ix2 r e) = ∑ k : Fin 512, x0 (ix2 r k) * x1 (ix2 (⟨64 + e.val, by omega⟩ : Fin 192) k))
    (A : S8192x512.Idx → EReal) (W : S192x512.Idx → EReal) (hA : A = V c main_arg0) (hW : W = V c main_v0) :
    (dat0 V c).arrAt 3 cfg0.N = fun y : S8192x64.Idx => ∑ k : Fin 512, A (ix2 (⟨(y 0).val, (y 0).isLt⟩ : Fin 8192) k) * W (ix2 (⟨64 + (y 1).val, by have h : (y 1).val < 64 := (y 1).isLt; omega⟩ : Fin 192) k) := by
  subst hA hW
  exact (dat0 V c).arrAt_eq_of_cover 3 (rowsDot (fun e : Fin 64 => (⟨64 + e.val, by omega⟩ : Fin 192)) (V c main_arg0) (V c main_v0))
    (fun t _ => flushed0_3_eq V c hpay t) (cover0_3)
/-- Result 2 after the launch: row `i` of the operand against row 128 + `e` of the weight, at every (i, e). -/
theorem final0_4 (c : Dev nD)
    (hpay : ∀ (x0 : Vec Ideal S1024x512 .f32) (x1 : Vec Ideal S192x512 .f32) (r : Fin 1024) (e : Fin 64),
      k0_pay4 (F := Ideal) x0 x1 (ix2 r e) = ∑ k : Fin 512, x0 (ix2 r k) * x1 (ix2 (⟨128 + e.val, by omega⟩ : Fin 192) k))
    (A : S8192x512.Idx → EReal) (W : S192x512.Idx → EReal) (hA : A = V c main_arg0) (hW : W = V c main_v0) :
    (dat0 V c).arrAt 4 cfg0.N = fun y : S8192x64.Idx => ∑ k : Fin 512, A (ix2 (⟨(y 0).val, (y 0).isLt⟩ : Fin 8192) k) * W (ix2 (⟨128 + (y 1).val, by have h : (y 1).val < 64 := (y 1).isLt; omega⟩ : Fin 192) k) := by
  subst hA hW
  exact (dat0 V c).arrAt_eq_of_cover 4 (rowsDot (fun e : Fin 64 => (⟨128 + e.val, by omega⟩ : Fin 192)) (V c main_arg0) (V c main_v0))
    (fun t _ => flushed0_4_eq V c hpay t) (cover0_4)

end Cert.KernelIdeal.Val

end
-- ==== Proof.Spec.lean ====
/-
  The mathematics of the certificate, with no program in sight: single-head attention over 8192 rows.
  For arrays X : 8192×512 and Wq, Wk, Wv : 64×512 of extended reals, the projections are
  Q i e = ∑ₖ X i k · Wq e k (likewise K, V); row i's logits against every key j are a scaled inner product of Q i and K j;
  a row's weights are exp (logit − the row's largest logit); the result is the weighted mean of the rows of V.
  The two programs differ in three places only: the scale (a product with the dyadic 1/8 inside the inner product, against a
  quotient by √64 after it), and where the normalising quotient by the row's total weight is taken (after the weighted sum
  of V, against on each weight before it). `kernelG` and `refG` spell the two; they agree on real-valued arrays.
-/
import Idealize.ShloMosaic.PureOps.Ideal
import Idealize.ShloMosaic.Lib.ValueIdx

noncomputable section

namespace Cert.Attn

open Idealize.ShloMosaic Idealize.ShloMosaic.ValueIdx

/-- The scale the kernel multiplies by: the word of 0.125. -/
abbrev cEighth : EReal := Ideal.ofBits .f32 0x3E000000#32
/-- The number whose square root the reference divides by: the word of 64.0. -/
abbrev c64 : EReal := Ideal.ofBits .f32 0x42800000#32

/-- Row `i` of `X` against row `e` of a weight matrix. -/
def proj (X : (⟨2, ![8192, 512]⟩ : Shape).Idx → EReal) (W : (⟨2, ![64, 512]⟩ : Shape).Idx → EReal) (i : Fin 8192) (e : Fin 64) : EReal :=
  ∑ k : Fin 512, X (ix2 i k) * W (ix2 e k)

/-- A row's largest logit (the supremum from ⊥ over all keys). -/
def rowMax (s : Fin 8192 → EReal) : EReal := Finset.univ.sup s
/-- Key `j`'s unnormalised weight in a row of logits `s`. -/
def wt (s : Fin 8192 → EReal) (j : Fin 8192) : EReal := Ideal.exp (s j - rowMax s)
/-- The kernel's row: the weighted sum of the values, then ONE quotient by the total weight. -/
def kernelRow (s v : Fin 8192 → EReal) : EReal := Ideal.div (∑ j, wt s j * v j) (∑ j, wt s j)
/-- The reference's row: every weight divided by the total first, then the weighted sum. -/
def refRow (s v : Fin 8192 → EReal) : EReal := ∑ j, Ideal.div (wt s j) (∑ j', wt s j') * v j
/-- The kernel's logit: the query scaled by 1/8 entry by entry, then the inner product. -/
def kScore (q k : Fin 64 → EReal) : EReal := ∑ e, (q e * cEighth) * k e
/-- The reference's logit: the inner product, then the quotient by √64. -/
def rScore (q k : Fin 64 → EReal) : EReal := Ideal.div (∑ e, q e * k e) (Ideal.sqrt c64)

variable (X : (⟨2, ![8192, 512]⟩ : Shape).Idx → EReal) (Wq Wk Wv : (⟨2, ![64, 512]⟩ : Shape).Idx → EReal)

/-- What the kernel computes at row `i`, column `d`. -/
def kernelAt (i : Fin 8192) (d : Fin 64) : EReal :=
  kernelRow (fun j => kScore (proj X Wq i) (proj X Wk j)) (fun j => proj X Wv j d)
/-- What the reference computes at row `i`, column `d`. -/
def refAt (i : Fin 8192) (d : Fin 64) : EReal :=
  refRow (fun j => rScore (proj X Wq i) (proj X Wk j)) (fun j => proj X Wv j d)

/-- The kernel's result array as one function of the argument arrays. -/
def kernelG : (⟨2, ![8192, 64]⟩ : Shape).Idx → EReal := fun y => kernelAt X Wq Wk Wv (y 0) (y 1)
/-- The reference's result array as one function of the argument arrays. -/
def refG : (⟨2, ![8192, 64]⟩ : Shape).Idx → EReal := fun y => refAt X Wq Wk Wv (y 0) (y 1)

end Cert.Attn

end
-- ==== Proof.Val1.lean ====
/-
  The attention launch's result array, whole. Grid point t leaves in rows 256·t … 256·t+255 of the result the attention of the
  same rows of the query array against ALL rows of the key and value arrays (those two windows are the whole arrays at every
  point). The thirty-two row blocks tile the 8192 rows, so the array ends as ONE function of the three arrays the launch finds:
  entry (i, d) is the kernel's row formula over the logits of query row i against every key row and over column d of the values.
-/
import proofs.«176520_j49624052138467_2_alg».proof.Proof.FrI1
import proofs.«176520_j49624052138467_2_alg».proof.Proof.Spec
import Idealize.ShloMosaic.Lib.Pipeline.Value
import Idealize.ShloMosaic.Lib.ValueIdx

noncomputable section

namespace Cert.KernelIdeal.Val

open Cert.KernelIdeal Cert.KernelIdeal.Gen Cert.KernelIdeal.Fr Idealize.ShloMosaic Idealize.ShloMosaic.ValueIdx
open Idealize.ShloMosaic.TcCoe
open Idealize.ShloMosaic.Pipeline (Dat)

variable (V : (c : Dev nD) → (b : Ref sig .tc) → Buf (Elt Ideal) ((c : Thread nD τ).loc b))

/-- Attention of query array Aq against key array Ak and value array Av, entry by entry: row (y 0) of the queries against every
    key row gives the row's logits; the entry is the kernel's row formula of those logits and column (y 1) of the values. -/
abbrev attnOf (Aq Ak Av : S8192x64.Idx → EReal) : S8192x64.Idx → EReal := fun y =>
  Cert.Attn.kernelRow
    (fun j : Fin 8192 => Cert.Attn.kScore (fun e : Fin 64 => Aq (ix2 (⟨(y 0).val, (y 0).isLt⟩ : Fin 8192) e)) (fun e : Fin 64 => Ak (ix2 j e)))
    (fun j : Fin 8192 => Av (ix2 j (⟨(y 1).val, (y 1).isLt⟩ : Fin 64)))

/-- The zero offset of a whole-buffer rectangle. -/
theorem zero_off : (![0, 0] : Fin 2 → Nat) = fun _ => 0 := funext fun a => by fin_cases a <;> rfl

/-- The index maps over the grid: the query and result blocks of point t are row block t, column block 0; the key and value
    windows stay at block (0, 0). -/
theorem block_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Point t's query block is rows 256·t … 256·t+255 of the query array. -/
theorem query_block (c : Dev nD) (t : Fin cfg1.N) (x : S256x64.Idx) (i : S8192x64.Idx)
    (h0 : (i 0).val = 256 * t.val + (x 0).val) (h1 : (i 1).val = (x 1).val) :
    (iblk1 V c 0 t : Vec Ideal S256x64 .f32) x = (V c main_v1_0 : S8192x64.Idx → EReal) i := by
  obtain ⟨e0, e1, -⟩ := block_index t
  show V c main_v1_0 (((cfg1.win 0).blk t).view.emb x) = V c main_v1_0 i
  refine congrArg (V c main_v1_0) ?_
  funext a
  apply Fin.ext
  match a with
  | ⟨0, _⟩ => show win1_0.index t (0 : Fin 2) * 256 + 1 * (x 0).val = (i 0).val; omega
  | ⟨1, _⟩ => show win1_0.index t (1 : Fin 2) * 64 + 1 * (x 1).val = (i 1).val; omega

/-- Every point's key block is the whole key array. -/
theorem key_block (c : Dev nD) (t : Fin cfg1.N) (x i : S8192x64.Idx)
    (h0 : (i 0).val = (x 0).val) (h1 : (i 1).val = (x 1).val) :
    (iblk1 V c 1 t : Vec Ideal S8192x64 .f32) x = (V c main_v1_1 : S8192x64.Idx → EReal) i := by
  obtain ⟨-, -, e0, e1, -⟩ := block_index t
  show V c main_v1_1 (((cfg1.win 1).blk t).view.emb x) = V c main_v1_1 i
  refine congrArg (V c main_v1_1) ?_
  funext a
  apply Fin.ext
  match a with
  | ⟨0, _⟩ => show win1_1.index t (0 : Fin 2) * 8192 + 1 * (x 0).val = (i 0).val; omega
  | ⟨1, _⟩ => show win1_1.index t (1 : Fin 2) * 64 + 1 * (x 1).val = (i 1).val; omega

/-- Every point's value block is the whole value array. -/
theorem value_block (c : Dev nD) (t : Fin cfg1.N) (x i : S8192x64.Idx)
    (h0 : (i 0).val = (x 0).val) (h1 : (i 1).val = (x 1).val) :
    (iblk1 V c 2 t : Vec Ideal S8192x64 .f32) x = (V c main_v1_2 : S8192x64.Idx → EReal) i := by
  obtain ⟨-, -, -, -, e0, e1, -⟩ := block_index t
  show V c main_v1_2 (((cfg1.win 2).blk t).view.emb x) = V c main_v1_2 i
  refine congrArg (V c main_v1_2) ?_
  funext a
  apply Fin.ext
  match a with
  | ⟨0, _⟩ => show win1_2.index t (0 : Fin 2) * 8192 + 1 * (x 0).val = (i 0).val; omega
  | ⟨1, _⟩ => show win1_2.index t (1 : Fin 2) * 64 + 1 * (x 1).val = (i 1).val; omega

section Point

variable (hpay : ∀ (q : Vec Ideal S256x64 .f32) (k v : Vec Ideal S8192x64 .f32) (r : Fin 256) (d : Fin 64),
    k1_pay1 (F := Ideal) q k v (ix2 r d)
      = Cert.Attn.kernelRow (fun j : Fin 8192 => Cert.Attn.kScore (fun e : Fin 64 => q (ix2 r e)) (fun e : Fin 64 => k (ix2 j e))) (fun j : Fin 8192 => v (ix2 j d)))
include hpay

/-- The body's stored value at an index of its block, the index given as a whole. -/
theorem pay_at (q : Vec Ideal S256x64 .f32) (k v : Vec Ideal S8192x64 .f32) (y : S256x64.Idx) :
    k1_pay1 (F := Ideal) q k v y
      = Cert.Attn.kernelRow
          (fun j : Fin 8192 => Cert.Attn.kScore (fun e : Fin 64 => q (ix2 (⟨(y 0).val, (y 0).isLt⟩ : Fin 256) e)) (fun e : Fin 64 => k (ix2 j e)))
          (fun j : Fin 8192 => v (ix2 j (⟨(y 1).val, (y 1).isLt⟩ : Fin 64))) := by
  have hy : y = ix2 (⟨(y 0).val, (y 0).isLt⟩ : Fin 256) (⟨(y 1).val, (y 1).isLt⟩ : Fin 64) := by
    funext a; match a with | ⟨0, _⟩ => rfl | ⟨1, _⟩ => rfl
  exact (congrArg (k1_pay1 (F := Ideal) q k v) hy).trans (hpay q k v _ _)

/-- One entry of one point's stored block, when the three loaded blocks are read off arrays Aq, Ak, Av: if the block's query row
    (y 0) is row (i 0) of Aq, the key and value blocks are Ak and Av, and column (y 1) is column (i 1), the entry is the
    attention of the arrays at i. -/
theorem point_entry (q : Vec Ideal S256x64 .f32) (k v : Vec Ideal S8192x64 .f32) (Aq Ak Av : S8192x64.Idx → EReal)
    (y : S256x64.Idx) (i : S8192x64.Idx)
    (hq : ∀ e : Fin 64, q (ix2 (⟨(y 0).val, (y 0).isLt⟩ : Fin 256) e) = Aq (ix2 (⟨(i 0).val, (i 0).isLt⟩ : Fin 8192) e))
    (hk : ∀ (j : Fin 8192) (e : Fin 64), k (ix2 j e) = Ak (ix2 j e))
    (hv : ∀ j : Fin 8192, v (ix2 j (⟨(y 1).val, (y 1).isLt⟩ : Fin 64)) = Av (ix2 j (⟨(i 1).val, (i 1).isLt⟩ : Fin 64))) :
    k1_pay1 (F := Ideal) q k v y = attnOf Aq Ak Av i := by
  rw [pay_at hpay q k v y]
  simp only [hq, hk, hv]

/-- WHAT POINT t WRITES BACK is block t of the attention of the arrays the launch finds. -/
theorem flushed_eq (c : Dev nD) (t : Fin cfg1.N) :
    (dat1 V c).flushed 3 t
      = ((cfg1.win 3).blk t).view.read (Elt Ideal) (attnOf (V c main_v1_0) (V c main_v1_1) (V c main_v1_2)) := by
  show (cfg1.win 3).cut (grid1.coords t) ((dat1 V c).after 3 t) = _
  rw [after1_3]
  unfold out1_3
  rw [View.canon_unit_zero zero_off]
  simp only [View.ld_unit_zero (S := S256x64) zero_off, View.ld_unit_zero (S := S8192x64) zero_off]
  obtain ⟨-, -, -, -, -, -, e0, e1⟩ := block_index t
  funext y
  show k1_pay1 (F := Ideal) (iblk1 V c 0 t) (iblk1 V c 1 t) (iblk1 V c 2 t) y
    = attnOf (V c main_v1_0) (V c main_v1_1) (V c main_v1_2) (((cfg1.win 3).blk t).view.emb y)
  have hy0 : (y 0).val < 256 := (y 0).isLt
  have hy1 : (y 1).val < 64 := (y 1).isLt
  have c0 : ((((cfg1.win 3).blk t).view.emb y) 0).val = 256 * t.val + (y 0).val := by
    show win1_3.index t (0 : Fin 2) * 256 + 1 * (y 0).val = _; omega
  have c1 : ((((cfg1.win 3).blk t).view.emb y) 1).val = (y 1).val := by
    show win1_3.index t (1 : Fin 2) * 64 + 1 * (y 1).val = _; omega
  refine point_entry hpay (iblk1 V c 0 t) (iblk1 V c 1 t) (iblk1 V c 2 t) (V c main_v1_0) (V c main_v1_1) (V c main_v1_2)
    y (((cfg1.win 3).blk t).view.emb y) (fun e => ?_) (fun j e => ?_) (fun j => ?_)
  · exact query_block V c t _ _ c0 rfl
  · exact key_block V c t _ _ rfl rfl
  · exact value_block V c t _ _ rfl c1

end Point

/-- An index of the result array is in point t's block iff each coordinate is in the block's range on its axis. -/
theorem mem_block (t : Fin cfg1.N) (i : S8192x64.Idx) :
    i ∈ ((cfg1.win 3).blk t).view.set
      ↔ ∀ a : Fin 2, win1_3.index t a * S256x64.size a ≤ (i a).val ∧ (i a).val < win1_3.index t a * S256x64.size a + S256x64.size a := by
  show i ∈ ((View.whole main_v2).slice (win1_3.rect t)).set ↔ _
  rw [View.set_slice_whole, Rect.mem_set_unit]
  exact Iff.rfl

/-- Row r of the result lies in the block of point r / 256, which is written back. -/
theorem rows_covered (i : S8192x64.Idx) :
    ∃ t : Fin cfg1.N, (cfg1.win 3).flush t = true ∧ i ∈ ((cfg1.win 3).blk t).view.set := by
  have hN : cfg1.N = 32 := N_1
  have hi0 : (i 0).val < 8192 := (i 0).isLt
  have hi1 : (i 1).val < 64 := (i 1).isLt
  obtain ⟨t, ht⟩ : ∃ t : Fin cfg1.N, t.val = (i 0).val / 256 := ⟨⟨(i 0).val / 256, by omega⟩, rfl⟩
  obtain ⟨-, -, -, -, -, -, e0, e1⟩ := block_index t
  refine ⟨t, flush1_3 t, ?_⟩
  rw [mem_block]
  intro a
  match a with
  | ⟨0, _⟩ => show win1_3.index t (0 : Fin 2) * 256 ≤ (i 0).val ∧ (i 0).val < win1_3.index t (0 : Fin 2) * 256 + 256; omega
  | ⟨1, _⟩ => show win1_3.index t (1 : Fin 2) * 64 ≤ (i 1).val ∧ (i 1).val < win1_3.index t (1 : Fin 2) * 64 + 64; omega

/-- THE RESULT ARRAY after the launch: the attention of the query, key and value arrays the launch finds, entry by entry. -/
theorem final1_3 (c : Dev nD)
    (hpay : ∀ (q : Vec Ideal S256x64 .f32) (k v : Vec Ideal S8192x64 .f32) (r : Fin 256) (d : Fin 64),
      k1_pay1 (F := Ideal) q k v (ix2 r d)
        = Cert.Attn.kernelRow (fun j : Fin 8192 => Cert.Attn.kScore (fun e : Fin 64 => q (ix2 r e)) (fun e : Fin 64 => k (ix2 j e))) (fun j : Fin 8192 => v (ix2 j d))) :
    (dat1 V c).arrAt 3 cfg1.N = fun y : S8192x64.Idx =>
      Cert.Attn.kernelRow
        (fun j : Fin 8192 => Cert.Attn.kScore (fun e : Fin 64 => (V c main_v1_0 : S8192x64.Idx → EReal) (ix2 (⟨(y 0).val, (y 0).isLt⟩ : Fin 8192) e)) (fun e : Fin 64 => (V c main_v1_1 : S8192x64.Idx → EReal) (ix2 j e)))
        (fun j : Fin 8192 => (V c main_v1_2 : S8192x64.Idx → EReal) (ix2 j (⟨(y 1).val, (y 1).isLt⟩ : Fin 64))) :=
  (dat1 V c).arrAt_eq_of_cover 3 (attnOf (V c main_v1_0) (V c main_v1_1) (V c main_v1_2))
    (fun t _ => flushed_eq V hpay c t) rows_covered

end Cert.KernelIdeal.Val

end
-- ==== Proof.Pay0.lean ====
/-
  The projection kernel's arithmetic read at an index. One grid point holds a 1024×512 block of X and the whole 192×512
  stack of the three weight matrices; it forms the 1024×192 product whose entry (r, n) is the inner product of row r of
  the block with row n of the stack, and cuts it into three 1024×64 column bands at offsets 0, 64 and 128. So column e of
  the three bands is the inner product of row r of the block with rows e, 64 + e and 128 + e of the stack.
  The stack itself is the three 64×512 matrices laid one under another: rows 0–63, 64–127 and 128–191 are the rows of the
  first, second and third.
-/
import proofs.«176520_j49624052138467_2_alg».proof.Proof.Gen.KernelIdeal.Skeleton
import proofs.«176520_j49624052138467_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayValue

open Cert.KernelIdeal Cert.KernelIdeal.Gen Idealize.ShloMosaic Idealize.ShloMosaic.ValueIdx

/-- The left operand's row coordinate is the result's row coordinate. -/
theorem lhs_0 (j : S1024x192.Idx) (q : dot_S1024x512_S192x512_S1024x192_1_1_0_0_n_n.contr.Idx) :
    (dot_S1024x512_S192x512_S1024x192_1_1_0_0_n_n.lhsIdx j q 0).val = (j 0).val := by
  unfold DotDims.lhsIdx
  rw [dif_neg (show ¬(0 : Fin S1024x512.rank) ∈ dot_S1024x512_S192x512_S1024x192_1_1_0_0_n_n.lhsBatch by decide), dif_pos (show (0 : Fin S1024x512.rank) ∈ dot_S1024x512_S192x512_S1024x192_1_1_0_0_n_n.lhsNonContracting by decide)]
  rfl
/-- The left operand's column coordinate is the contraction position. -/
theorem lhs_1 (j : S1024x192.Idx) (q : dot_S1024x512_S192x512_S1024x192_1_1_0_0_n_n.contr.Idx) :
    (dot_S1024x512_S192x512_S1024x192_1_1_0_0_n_n.lhsIdx j q 1).val = (q ⟨0, by decide⟩).val :=
  dot_S1024x512_S192x512_S1024x192_1_1_0_0_n_n.lhsIdx_val_of_single rfl j q
/-- The right operand's row coordinate is the result's column coordinate. -/
theorem rhs_0 (j : S1024x192.Idx) (q : dot_S1024x512_S192x512_S1024x192_1_1_0_0_n_n.contr.Idx) :
    (dot_S1024x512_S192x512_S1024x192_1_1_0_0_n_n.rhsIdx j q 0).val = (j 1).val := by
  unfold DotDims.rhsIdx
  rw [dif_neg (show ¬(0 : Fin S192x512.rank) ∈ dot_S1024x512_S192x512_S1024x192_1_1_0_0_n_n.rhsBatch by decide), dif_pos (show (0 : Fin S192x512.rank) ∈ dot_S1024x512_S192x512_S1024x192_1_1_0_0_n_n.rhsNonContracting by decide)]
  rfl
/-- The right operand's column coordinate is the contraction position. -/
theorem rhs_1 (j : S1024x192.Idx) (q : dot_S1024x512_S192x512_S1024x192_1_1_0_0_n_n.contr.Idx) :
    (dot_S1024x512_S192x512_S1024x192_1_1_0_0_n_n.rhsIdx j q 1).val = (q ⟨0, by decide⟩).val :=
  dot_S1024x512_S192x512_S1024x192_1_1_0_0_n_n.rhsIdx_val_of_single rfl j q

/-- The 1024×192 product at (r, n): row r of the block against row n of the stack. -/
theorem k0_pay1_apply (x0 : Vec Ideal S1024x512 .f32) (x1 : Vec Ideal S192x512 .f32) (r : Fin 1024) (n : Fin 192) :
    k0_pay1 (F := Ideal) x0 x1 (ix2 r n) = ∑ k : Fin 512, x0 (ix2 r k) * x1 (ix2 n k) := by
  unfold k0_pay1
  rw [shapeCast_self]
  simp only [matmul]
  rw [Ideal.matmul_constant_zero_apply, ← Equiv.sum_comp (contrEquiv1 dot_S1024x512_S192x512_S1024x192_1_1_0_0_n_n 512 rfl rfl).symm]
  refine Finset.sum_congr rfl fun k _ => ?_
  have hk := contrEquiv1_symm_val dot_S1024x512_S192x512_S1024x192_1_1_0_0_n_n 512 rfl rfl k
  have el : dot_S1024x512_S192x512_S1024x192_1_1_0_0_n_n.lhsIdx (ix2 r n) ((contrEquiv1 dot_S1024x512_S192x512_S1024x192_1_1_0_0_n_n 512 rfl rfl).symm k) = ix2 r k := funext fun a => Fin.ext (by
    match a with
    | ⟨0, _⟩ => exact lhs_0 _ _
    | ⟨1, _⟩ => exact (lhs_1 _ _).trans hk)
  have er : dot_S1024x512_S192x512_S1024x192_1_1_0_0_n_n.rhsIdx (ix2 r n) ((contrEquiv1 dot_S1024x512_S192x512_S1024x192_1_1_0_0_n_n 512 rfl rfl).symm k) = ix2 n k := funext fun a => Fin.ext (by
    match a with
    | ⟨0, _⟩ => exact rhs_0 _ _
    | ⟨1, _⟩ => exact (rhs_1 _ _).trans hk)
  rw [el, er]

/-- Columns 0–63 of a 1024×192 array: the band at offset 0 read at (r, e) is the array at (r, e). -/
theorem band0_apply (y : FVec Ideal S1024x192 .f32) (r : Fin 1024) (e : Fin 64) :
    extractStridedSlice S1024x64 ![0, 0] y slices_S1024x192_o0_0_S1024x64 (ix2 r e) = y (ix2 r (⟨e.val, by omega⟩ : Fin 192)) :=
  extractStridedSlice_apply ![0, 0] y slices_S1024x192_o0_0_S1024x64 (ix2 r e) (ix2 r (⟨e.val, by omega⟩ : Fin 192)) (fun a => by
    match a with
    | ⟨0, _⟩ => exact (Nat.zero_add _).symm
    | ⟨1, _⟩ => exact (Nat.zero_add _).symm)

/-- Columns 64–127: the band at offset 64 read at (r, e) is the array at (r, 64 + e). -/
theorem band1_apply (y : FVec Ideal S1024x192 .f32) (r : Fin 1024) (e : Fin 64) :
    extractStridedSlice S1024x64 ![0, 64] y slices_S1024x192_o0_64_S1024x64 (ix2 r e) = y (ix2 r (⟨64 + e.val, by omega⟩ : Fin 192)) :=
  extractStridedSlice_apply ![0, 64] y slices_S1024x192_o0_64_S1024x64 (ix2 r e) (ix2 r (⟨64 + e.val, by omega⟩ : Fin 192)) (fun a => by
    match a with
    | ⟨0, _⟩ => exact (Nat.zero_add _).symm
    | ⟨1, _⟩ => rfl)

/-- Columns 128–191: the band at offset 128 read at (r, e) is the array at (r, 128 + e). -/
theorem band2_apply (y : FVec Ideal S1024x192 .f32) (r : Fin 1024) (e : Fin 64) :
    extractStridedSlice S1024x64 ![0, 128] y slices_S1024x192_o0_128_S1024x64 (ix2 r e) = y (ix2 r (⟨128 + e.val, by omega⟩ : Fin 192)) :=
  extractStridedSlice_apply ![0, 128] y slices_S1024x192_o0_128_S1024x64 (ix2 r e) (ix2 r (⟨128 + e.val, by omega⟩ : Fin 192)) (fun a => by
    match a with
    | ⟨0, _⟩ => exact (Nat.zero_add _).symm
    | ⟨1, _⟩ => rfl)

/-- The first band: columns 0–63 of the product. -/
theorem k0_pay2_apply (x0 : Vec Ideal S1024x512 .f32) (x1 : Vec Ideal S192x512 .f32) (r : Fin 1024) (e : Fin 64) :
    k0_pay2 (F := Ideal) x0 x1 (ix2 r e) = ∑ k : Fin 512, x0 (ix2 r k) * x1 (ix2 (⟨e.val, by omega⟩ : Fin 192) k) := by
  unfold k0_pay2
  exact (band0_apply _ r e).trans (k0_pay1_apply x0 x1 r _)

/-- The second band: columns 64–127 of the product. -/
theorem k0_pay3_apply (x0 : Vec Ideal S1024x512 .f32) (x1 : Vec Ideal S192x512 .f32) (r : Fin 1024) (e : Fin 64) :
    k0_pay3 (F := Ideal) x0 x1 (ix2 r e) = ∑ k : Fin 512, x0 (ix2 r k) * x1 (ix2 (⟨64 + e.val, by omega⟩ : Fin 192) k) := by
  unfold k0_pay3
  exact (band1_apply _ r e).trans (k0_pay1_apply x0 x1 r _)

/-- The third band: columns 128–191 of the product. -/
theorem k0_pay4_apply (x0 : Vec Ideal S1024x512 .f32) (x1 : Vec Ideal S192x512 .f32) (r : Fin 1024) (e : Fin 64) :
    k0_pay4 (F := Ideal) x0 x1 (ix2 r e) = ∑ k : Fin 512, x0 (ix2 r k) * x1 (ix2 (⟨128 + e.val, by omega⟩ : Fin 192) k) := by
  unfold k0_pay4
  exact (band2_apply _ r e).trans (k0_pay1_apply x0 x1 r _)

/-- Rows 0–63 of the stack are the rows of the first matrix. -/
theorem concat_apply0 (u0 u1 u2 : FVec Ideal S64x512 .f32) (e : Fin 64) (k : Fin 512) :
    concatenate S192x512 0 [⟨S64x512, u0⟩, ⟨S64x512, u1⟩, ⟨S64x512, u2⟩] Facts₀.concatenates_S64x512_S64x512_S64x512_S192x512_d0
      (ix2 (⟨e.val, by omega⟩ : Fin 192) k) = u0 (ix2 e k) := by
  refine concatenate_apply_piece (t := S192x512) 0 [⟨S64x512, u0⟩, ⟨S64x512, u1⟩, ⟨S64x512, u2⟩] _ _ 0 (by show (0 : Nat) < 3; omega) S64x512 u0 rfl rfl 0 rfl (ix2 e k) ?_ ?_
  · intro b hb
    match b with
    | ⟨0, _⟩ => exact absurd rfl hb
    | ⟨1, _⟩ => rfl
  · exact Nat.zero_add _

/-- Rows 64–127 of the stack are the rows of the second matrix. -/
theorem concat_apply1 (u0 u1 u2 : FVec Ideal S64x512 .f32) (e : Fin 64) (k : Fin 512) :
    concatenate S192x512 0 [⟨S64x512, u0⟩, ⟨S64x512, u1⟩, ⟨S64x512, u2⟩] Facts₀.concatenates_S64x512_S64x512_S64x512_S192x512_d0
      (ix2 (⟨64 + e.val, by omega⟩ : Fin 192) k) = u1 (ix2 e k) := by
  refine concatenate_apply_piece (t := S192x512) 0 [⟨S64x512, u0⟩, ⟨S64x512, u1⟩, ⟨S64x512, u2⟩] _ _ 1 (by show (1 : Nat) < 3; omega) S64x512 u1 rfl rfl 64 rfl (ix2 e k) ?_ ?_
  · intro b hb
    match b with
    | ⟨0, _⟩ => exact absurd rfl hb
    | ⟨1, _⟩ => rfl
  · rfl

/-- Rows 128–191 of the stack are the rows of the third matrix. -/
theorem concat_apply2 (u0 u1 u2 : FVec Ideal S64x512 .f32) (e : Fin 64) (k : Fin 512) :
    concatenate S192x512 0 [⟨S64x512, u0⟩, ⟨S64x512, u1⟩, ⟨S64x512, u2⟩] Facts₀.concatenates_S64x512_S64x512_S64x512_S192x512_d0
      (ix2 (⟨128 + e.val, by omega⟩ : Fin 192) k) = u2 (ix2 e k) := by
  refine concatenate_apply_piece (t := S192x512) 0 [⟨S64x512, u0⟩, ⟨S64x512, u1⟩, ⟨S64x512, u2⟩] _ _ 2 (by show (2 : Nat) < 3; omega) S64x512 u2 rfl rfl 128 rfl (ix2 e k) ?_ ?_
  · intro b hb
    match b with
    | ⟨0, _⟩ => exact absurd rfl hb
    | ⟨1, _⟩ => rfl
  · rfl

end Cert.KernelIdeal.PayValue

end
-- ==== Proof.Pay1.lean ====
/-
  One block of attention, entry by entry. A block holds 256 rows of queries; it sees every key and every value
  (8192 rows of 64 entries each). For a query row r, the block's arithmetic is, over the extended reals:
    s j = ∑ₑ (q r e · 1/8) · k j e            the logit of row r against key j (the scale applied to the query first),
    m   = the supremum of s over all keys       (a fold of max from −∞, the order's least element),
    p j = exp (s j − m)                         key j's unnormalised weight,
    result r d = (∑ⱼ p j · v j d) / (∑ⱼ p j)   the weighted sum of column d of the values, then one quotient.
  Each step below reads one operation of that chain at explicit coordinates: the two matrix products as sums over the
  contracted coordinate, the two row reductions as a supremum and a sum over the 8192 keys, and the keepdims
  column [256] → [256, 1] spread along a row as the constant it is. The last theorem puts them together: the block's
  entry (r, d) is the specification's `kernelRow` of row r's logits and column d of the values.
-/
import proofs.«176520_j49624052138467_2_alg».proof.Proof.Gen.KernelIdeal.Skeleton
import proofs.«176520_j49624052138467_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayValue

open Cert.KernelIdeal Cert.KernelIdeal.Gen Idealize.ShloMosaic Idealize.ShloMosaic.ValueIdx

/-! ## The scaled query -/

/-- The query block times the splat of the word of 0.125, at (r, e): the query's entry times 1/8. -/
theorem scaledQ_apply (q : FVec Ideal S256x64 .f32) (h : S256x64.ShapeCasts S256x64) (r : Fin 256) (e : Fin 64) :
    mulf (shapeCast S256x64 q h) (broadcast S256x64 (Scalar.ofBits (F := Ideal) .f32 0x3E000000#32)) (ix2 r e)
      = q (ix2 r e) * Cert.Attn.cEighth := by
  rw [mulf_apply, shapeCast_self, broadcast_apply]; rfl

/-! ## The two matrix products as sums over the contracted coordinate -/

/-- Queries against keys (both contracted along their 64 entries): the left operand's free axis carries the result's row. -/
theorem logits_lhs_free (i : S256x8192.Idx) (q : dot_S256x64_S8192x64_S256x8192_1_1_0_0_n_n.contr.Idx) :
    (dot_S256x64_S8192x64_S256x8192_1_1_0_0_n_n.lhsIdx i q 0).val = (i 0).val := by
  unfold DotDims.lhsIdx
  rw [dif_neg (show ¬(0 : Fin S256x64.rank) ∈ dot_S256x64_S8192x64_S256x8192_1_1_0_0_n_n.lhsBatch by decide), dif_pos (show (0 : Fin S256x64.rank) ∈ dot_S256x64_S8192x64_S256x8192_1_1_0_0_n_n.lhsNonContracting by decide)]
  rfl
/-- … its contracted axis carries the summation index. -/
theorem logits_lhs_contr (i : S256x8192.Idx) (q : dot_S256x64_S8192x64_S256x8192_1_1_0_0_n_n.contr.Idx) :
    (dot_S256x64_S8192x64_S256x8192_1_1_0_0_n_n.lhsIdx i q 1).val = (q ⟨0, by decide⟩).val :=
  dot_S256x64_S8192x64_S256x8192_1_1_0_0_n_n.lhsIdx_val_of_single rfl i q
/-- The right operand's free axis carries the result's column … -/
theorem logits_rhs_free (i : S256x8192.Idx) (q : dot_S256x64_S8192x64_S256x8192_1_1_0_0_n_n.contr.Idx) :
    (dot_S256x64_S8192x64_S256x8192_1_1_0_0_n_n.rhsIdx i q 0).val = (i 1).val := by
  unfold DotDims.rhsIdx
  rw [dif_neg (show ¬(0 : Fin S8192x64.rank) ∈ dot_S256x64_S8192x64_S256x8192_1_1_0_0_n_n.rhsBatch by decide), dif_pos (show (0 : Fin S8192x64.rank) ∈ dot_S256x64_S8192x64_S256x8192_1_1_0_0_n_n.rhsNonContracting by decide)]
  rfl
/-- … and its contracted axis the summation index. -/
theorem logits_rhs_contr (i : S256x8192.Idx) (q : dot_S256x64_S8192x64_S256x8192_1_1_0_0_n_n.contr.Idx) :
    (dot_S256x64_S8192x64_S256x8192_1_1_0_0_n_n.rhsIdx i q 1).val = (q ⟨0, by decide⟩).val :=
  dot_S256x64_S8192x64_S256x8192_1_1_0_0_n_n.rhsIdx_val_of_single rfl i q

/-- A [256, 64] array against a [8192, 64] array, contracted along the 64 entries of both, into a zero accumulator:
    entry (r, j) is the inner product of row r of the first with row j of the second. -/
theorem logits_apply (a : FVec Ideal S256x64 .f32) (b : FVec Ideal S8192x64 .f32) (r : Fin 256) (j : Fin 8192) :
    matmul dot_S256x64_S8192x64_S256x8192_1_1_0_0_n_n (some .fp32) a b (constant (F := Ideal) S256x8192 .f32 0x00000000#32) (ix2 r j)
      = ∑ e : Fin 64, a (ix2 r e) * b (ix2 j e) := by
  simp only [matmul]
  rw [Ideal.matmul_constant_zero_apply, ← Equiv.sum_comp (contrEquiv1 dot_S256x64_S8192x64_S256x8192_1_1_0_0_n_n 64 rfl rfl).symm]
  refine Finset.sum_congr rfl fun e _ => ?_
  have he := contrEquiv1_symm_val dot_S256x64_S8192x64_S256x8192_1_1_0_0_n_n 64 rfl rfl e
  have el : dot_S256x64_S8192x64_S256x8192_1_1_0_0_n_n.lhsIdx (ix2 r j) ((contrEquiv1 dot_S256x64_S8192x64_S256x8192_1_1_0_0_n_n 64 rfl rfl).symm e) = ix2 r e :=
    funext fun c => Fin.ext (by
      match c with
      | ⟨0, _⟩ => exact logits_lhs_free _ _
      | ⟨1, _⟩ => exact (logits_lhs_contr _ _).trans he)
  have er : dot_S256x64_S8192x64_S256x8192_1_1_0_0_n_n.rhsIdx (ix2 r j) ((contrEquiv1 dot_S256x64_S8192x64_S256x8192_1_1_0_0_n_n 64 rfl rfl).symm e) = ix2 j e :=
    funext fun c => Fin.ext (by
      match c with
      | ⟨0, _⟩ => exact logits_rhs_free _ _
      | ⟨1, _⟩ => exact (logits_rhs_contr _ _).trans he)
  rw [el, er]

/-- Weights against values (the weights' 8192 keys contracted with the values' 8192 rows): the left operand's free axis carries the result's row. -/
theorem pv_lhs_free (i : S256x64.Idx) (q : dot_S256x8192_S8192x64_S256x64_1_0_0_1_n_n.contr.Idx) :
    (dot_S256x8192_S8192x64_S256x64_1_0_0_1_n_n.lhsIdx i q 0).val = (i 0).val := by
  unfold DotDims.lhsIdx
  rw [dif_neg (show ¬(0 : Fin S256x8192.rank) ∈ dot_S256x8192_S8192x64_S256x64_1_0_0_1_n_n.lhsBatch by decide), dif_pos (show (0 : Fin S256x8192.rank) ∈ dot_S256x8192_S8192x64_S256x64_1_0_0_1_n_n.lhsNonContracting by decide)]
  rfl
/-- … its contracted axis carries the summation index. -/
theorem pv_lhs_contr (i : S256x64.Idx) (q : dot_S256x8192_S8192x64_S256x64_1_0_0_1_n_n.contr.Idx) :
    (dot_S256x8192_S8192x64_S256x64_1_0_0_1_n_n.lhsIdx i q 1).val = (q ⟨0, by decide⟩).val :=
  dot_S256x8192_S8192x64_S256x64_1_0_0_1_n_n.lhsIdx_val_of_single rfl i q
/-- The right operand's free axis carries the result's column … -/
theorem pv_rhs_free (i : S256x64.Idx) (q : dot_S256x8192_S8192x64_S256x64_1_0_0_1_n_n.contr.Idx) :
    (dot_S256x8192_S8192x64_S256x64_1_0_0_1_n_n.rhsIdx i q 1).val = (i 1).val := by
  unfold DotDims.rhsIdx
  rw [dif_neg (show ¬(1 : Fin S8192x64.rank) ∈ dot_S256x8192_S8192x64_S256x64_1_0_0_1_n_n.rhsBatch by decide), dif_pos (show (1 : Fin S8192x64.rank) ∈ dot_S256x8192_S8192x64_S256x64_1_0_0_1_n_n.rhsNonContracting by decide)]
  rfl
/-- … and its contracted axis the summation index. -/
theorem pv_rhs_contr (i : S256x64.Idx) (q : dot_S256x8192_S8192x64_S256x64_1_0_0_1_n_n.contr.Idx) :
    (dot_S256x8192_S8192x64_S256x64_1_0_0_1_n_n.rhsIdx i q 0).val = (q ⟨0, by decide⟩).val :=
  dot_S256x8192_S8192x64_S256x64_1_0_0_1_n_n.rhsIdx_val_of_single rfl i q

/-- A [256, 8192] array against a [8192, 64] array, the keys contracted, into a zero accumulator: entry (r, d) is the
    sum over the keys j of the first at (r, j) times the second at (j, d). -/
theorem pv_apply (p : FVec Ideal S256x8192 .f32) (b : FVec Ideal S8192x64 .f32) (r : Fin 256) (d : Fin 64) :
    matmul dot_S256x8192_S8192x64_S256x64_1_0_0_1_n_n (some .fp32) p b (constant (F := Ideal) S256x64 .f32 0x00000000#32) (ix2 r d)
      = ∑ j : Fin 8192, p (ix2 r j) * b (ix2 j d) := by
  simp only [matmul]
  rw [Ideal.matmul_constant_zero_apply, ← Equiv.sum_comp (contrEquiv1 dot_S256x8192_S8192x64_S256x64_1_0_0_1_n_n 8192 rfl rfl).symm]
  refine Finset.sum_congr rfl fun e _ => ?_
  have he := contrEquiv1_symm_val dot_S256x8192_S8192x64_S256x64_1_0_0_1_n_n 8192 rfl rfl e
  have el : dot_S256x8192_S8192x64_S256x64_1_0_0_1_n_n.lhsIdx (ix2 r d) ((contrEquiv1 dot_S256x8192_S8192x64_S256x64_1_0_0_1_n_n 8192 rfl rfl).symm e) = ix2 r e :=
    funext fun c => Fin.ext (by
      match c with
      | ⟨0, _⟩ => exact pv_lhs_free _ _
      | ⟨1, _⟩ => exact (pv_lhs_contr _ _).trans he)
  have er : dot_S256x8192_S8192x64_S256x64_1_0_0_1_n_n.rhsIdx (ix2 r d) ((contrEquiv1 dot_S256x8192_S8192x64_S256x64_1_0_0_1_n_n 8192 rfl rfl).symm e) = ix2 e d :=
    funext fun c => Fin.ext (by
      match c with
      | ⟨0, _⟩ => exact (pv_rhs_contr _ _).trans he
      | ⟨1, _⟩ => exact pv_rhs_free _ _)
  rw [el, er]

/-! ## The two row reductions -/

/-- The word 0xFF800000 is −∞, the least extended real. -/
theorem bot_word : Ideal.ofBits .f32 0xFF800000#32 = (⊥ : EReal) := by
  simp [Ideal.ofBits, Ideal.ieee]

/-- A row's maximum: the fold of max from −∞ over the row's 8192 entries is their supremum. -/
theorem rowMax_apply (s : FVec Ideal S256x8192 .f32) (h : S256x8192.Reduces [1] S256) (hφ : FKind.Formats .f32)
    (hacc : (0xFF800000#32 : BitVec 32) = 0xFF800000#32) (r : Fin 256) :
    multiReduction .maximumf [1] S256 s 0xFF800000#32 h hφ hacc (ix1 r) = Finset.univ.sup (fun j : Fin 8192 => s (ix2 r j)) := by
  refine (Ideal.multiReduction_maximumf_single s 0xFF800000#32 h hφ hacc (ix1 r)).trans ?_
  have hl : (s ∘ h.lift (ix1 r)) = fun k : Fin 8192 => s (ix2 r k) :=
    funext fun k => congrArg s (funext fun c => Fin.ext (by match c with | ⟨0, _⟩ => rfl | ⟨1, _⟩ => rfl))
  rw [hl]
  show (Finset.univ : Finset (Fin 8192)).fold max (Ideal.ofBits .f32 0xFF800000#32) (fun k : Fin 8192 => s (ix2 r k)) = _
  rw [bot_word]
  rfl

/-- A row's sum: the sum over the row's 8192 entries (the accumulator is the zero word, left out of the sum). -/
theorem rowSum_apply (p : FVec Ideal S256x8192 .f32) (h : S256x8192.Reduces [1] S256) (hφ : FKind.Formats .f32)
    (hacc : (0x00000000#32 : BitVec 32) = 0x00000000#32) (r : Fin 256) :
    multiReduction .add [1] S256 p 0x00000000#32 h hφ hacc (ix1 r) = ∑ j : Fin 8192, p (ix2 r j) := by
  refine (Ideal.multiReduction_add_single p 0x00000000#32 h hφ hacc (ix1 r)).trans ?_
  exact Finset.sum_congr rfl fun k _ => congrArg p (funext fun c => Fin.ext (by match c with | ⟨0, _⟩ => rfl | ⟨1, _⟩ => rfl))

/-! ## A column kept as a unit axis, and spread along rows -/

/-- An [a] array cast to the column [a, 1] reads, at (i, u), the operand at i, whatever the unit coordinate u. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column's entry of row p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The chain, link by link -/

/-- The unnormalised weight of key j in row r of a logit array: exp of the logit minus the row's supremum. -/
theorem weights_apply (s : FVec Ideal S256x8192 .f32) (h : S256x8192.Reduces [1] S256) (hφ : FKind.Formats .f32)
    (hacc : (0xFF800000#32 : BitVec 32) = 0xFF800000#32) (hc : S256.ShapeCasts S256x1) (hb : S256x1.Broadcasts S256x8192)
    (r : Fin 256) (j : Fin 8192) :
    exp (subf s (broadcastTo S256x8192 (shapeCast S256x1 (multiReduction .maximumf [1] S256 s 0xFF800000#32 h hφ hacc) hc) hb)) (ix2 r j)
      = Ideal.exp (s (ix2 r j) - Finset.univ.sup (fun j' : Fin 8192 => s (ix2 r j'))) := by
  show Ideal.exp (s (ix2 r j) - broadcastTo S256x8192 (shapeCast S256x1 (multiReduction .maximumf [1] S256 s 0xFF800000#32 h hφ hacc) hc) hb (ix2 r j)) = _
  rw [broadcastTo_a1_ab_apply, shapeCast_a_a1_apply, rowMax_apply]

/-- A row's total weight, kept as a column and spread over the 64 result columns: at (r, d) the sum of row r. -/
theorem total_apply (p : FVec Ideal S256x8192 .f32) (h : S256x8192.Reduces [1] S256) (hφ : FKind.Formats .f32)
    (hacc : (0x00000000#32 : BitVec 32) = 0x00000000#32) (hc : S256.ShapeCasts S256x1) (hb : S256x1.Broadcasts S256x64)
    (r : Fin 256) (d : Fin 64) :
    broadcastTo S256x64 (shapeCast S256x1 (multiReduction .add [1] S256 p 0x00000000#32 h hφ hacc) hc) hb (ix2 r d)
      = ∑ j : Fin 8192, p (ix2 r j) := by
  rw [broadcastTo_a1_ab_apply, shapeCast_a_a1_apply, rowSum_apply]

/-- The logits: the scaled query block against every key, at (r, j) the specification's `kScore` of row r and key j. -/
theorem scores_apply (q : FVec Ideal S256x64 .f32) (k : FVec Ideal S8192x64 .f32) (h : S256x64.ShapeCasts S256x64)
    (h' : S8192x64.ShapeCasts S8192x64) (r : Fin 256) (j : Fin 8192) :
    matmul dot_S256x64_S8192x64_S256x8192_1_1_0_0_n_n (some .fp32)
        (mulf (shapeCast S256x64 q h) (broadcast S256x64 (Scalar.ofBits (F := Ideal) .f32 0x3E000000#32)))
        (shapeCast S8192x64 k h') (constant (F := Ideal) S256x8192 .f32 0x00000000#32) (ix2 r j)
      = Cert.Attn.kScore (fun e : Fin 64 => q (ix2 r e)) (fun e : Fin 64 => k (ix2 j e)) := by
  rw [logits_apply]
  unfold Cert.Attn.kScore
  exact Finset.sum_congr rfl fun e _ => by rw [scaledQ_apply, shapeCast_self]

/-- The block's entry (r, d): the weighted sum of column d of the values under row r's weights, divided once by the
    row's total weight. -/
theorem k1_pay1_apply (q : Vec Ideal S256x64 .f32) (k v : Vec Ideal S8192x64 .f32) (r : Fin 256) (d : Fin 64) :
    k1_pay1 (F := Ideal) q k v (ix2 r d)
      = Cert.Attn.kernelRow (fun j : Fin 8192 => Cert.Attn.kScore (fun e : Fin 64 => q (ix2 r e)) (fun e : Fin 64 => k (ix2 j e))) (fun j : Fin 8192 => v (ix2 j d)) := by
  unfold k1_pay1
  dsimp only
  rw [divf_apply, pv_apply, total_apply]
  unfold Cert.Attn.kernelRow
  refine congrArg₂ Ideal.div (Finset.sum_congr rfl fun j _ => ?_) (Finset.sum_congr rfl fun j _ => ?_)
  · rw [weights_apply]
    simp only [scores_apply]
    rw [shapeCast_self]
    rfl
  · rw [weights_apply]
    simp only [scores_apply]
    rfl

end Cert.KernelIdeal.PayValue

end
-- ==== Proof.ValRun.lean ====
/-
  The kernel's result as one function of the argument arrays, at the exact instance. The stacked weight the host line builds has
  rows 0–63 / 64–127 / 128–191 equal to the rows of the query / key / value weights, so the projection launch's three result arrays
  are the three projections of the specification; the attention launch reads them as its operands, so its result array is the
  specification's kernel form of attention, row by row. Every execution ends with the result buffer at that function and the
  argument arrays as launched.
-/
import proofs.«176520_j49624052138467_2_alg».proof.Proof.FrIRun
import proofs.«176520_j49624052138467_2_alg».proof.Proof.Val0
import proofs.«176520_j49624052138467_2_alg».proof.Proof.Val1
import proofs.«176520_j49624052138467_2_alg».proof.Proof.Pay0
import proofs.«176520_j49624052138467_2_alg».proof.Proof.Pay1
import proofs.«176520_j49624052138467_2_alg».proof.Proof.Spec
import Idealize.ShloMosaic.Lib.StableHlo.Run
import Idealize.ShloMosaic.Lib.ValueIdx

noncomputable section

namespace Cert.KernelIdeal.Val

open Cert.KernelIdeal Cert.KernelIdeal.Gen Cert.KernelIdeal.Fr Cert.KernelIdeal.PayValue
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The first operand reaches the projection launch as launched. -/
theorem V1_arg0 (c : Dev nD) : V1 m ρ c main_arg0 = m ((c : Thread nD τ).loc main_arg0) := W1_of_ne m ρ c main_arg0 (by decide)

/-- The stacked weight is the concatenation of the three weight arrays along the rows. -/
theorem V1_v0 (c : Dev nD) : V1 m ρ c main_v0 = concatenate S192x512 0 [⟨S64x512, m ((c : Thread nD τ).loc main_arg1)⟩, ⟨S64x512, m ((c : Thread nD τ).loc main_arg2)⟩, ⟨S64x512, m ((c : Thread nD τ).loc main_arg3)⟩] Facts₀.concatenates_S64x512_S64x512_S64x512_S192x512_d0 := by
  show StableHlo.after hostOps0 (W0 m ρ c) (Proc.devRef .tc main_v0) = _
  after_results
  rfl

/-- The three projections, as the attention launch finds them. -/
theorem Q_eq (c : Dev nD) : V2 m ρ c main_v1_0 = fun y : S8192x64.Idx =>
    Cert.Attn.proj (m ((c : Thread nD τ).loc main_arg0)) (m ((c : Thread nD τ).loc main_arg1)) ⟨(y 0).val, (y 0).isLt⟩ ⟨(y 1).val, (y 1).isLt⟩ := by
  refine ((W2_arr m ρ c 2).trans (final0_2 (V1 m ρ) c k0_pay2_apply _ _ (V1_arg0 m ρ c).symm (V1_v0 m ρ c).symm)).trans ?_
  funext y
  unfold Cert.Attn.proj
  refine Finset.sum_congr rfl fun k _ => ?_
  rw [concat_apply0 _ _ _ (⟨(y 1).val, (y 1).isLt⟩ : Fin 64) k]
theorem K_eq (c : Dev nD) : V2 m ρ c main_v1_1 = fun y : S8192x64.Idx =>
    Cert.Attn.proj (m ((c : Thread nD τ).loc main_arg0)) (m ((c : Thread nD τ).loc main_arg2)) ⟨(y 0).val, (y 0).isLt⟩ ⟨(y 1).val, (y 1).isLt⟩ := by
  refine ((W2_arr m ρ c 3).trans (final0_3 (V1 m ρ) c k0_pay3_apply _ _ (V1_arg0 m ρ c).symm (V1_v0 m ρ c).symm)).trans ?_
  funext y
  unfold Cert.Attn.proj
  refine Finset.sum_congr rfl fun k _ => ?_
  rw [concat_apply1 _ _ _ (⟨(y 1).val, (y 1).isLt⟩ : Fin 64) k]
theorem V_eq (c : Dev nD) : V2 m ρ c main_v1_2 = fun y : S8192x64.Idx =>
    Cert.Attn.proj (m ((c : Thread nD τ).loc main_arg0)) (m ((c : Thread nD τ).loc main_arg3)) ⟨(y 0).val, (y 0).isLt⟩ ⟨(y 1).val, (y 1).isLt⟩ := by
  refine ((W2_arr m ρ c 4).trans (final0_4 (V1 m ρ) c k0_pay4_apply _ _ (V1_arg0 m ρ c).symm (V1_v0 m ρ c).symm)).trans ?_
  funext y
  unfold Cert.Attn.proj
  refine Finset.sum_congr rfl fun k _ => ?_
  rw [concat_apply2 _ _ _ (⟨(y 1).val, (y 1).isLt⟩ : Fin 64) k]

/-- The result array after the attention launch is the specification's kernel form. -/
theorem out_eq (c : Dev nD) : V3 m ρ c main_v2 =
    Cert.Attn.kernelG (m ((c : Thread nD τ).loc main_arg0)) (m ((c : Thread nD τ).loc main_arg1)) (m ((c : Thread nD τ).loc main_arg2)) (m ((c : Thread nD τ).loc main_arg3)) := by
  have h1 : V3 m ρ c main_v2 = (dat1 (V2 m ρ) c).arrAt 3 cfg1.N := W3_arr m ρ c 3
  rw [h1, final1_3 (V2 m ρ) c k1_pay1_apply, Q_eq m ρ c, K_eq m ρ c, V_eq m ρ c]
  rfl

/-- The kernel's run with its result named by the specification, the arguments unchanged. -/
theorem run : θ_run (defs (F := Ideal)) (onTc (τ := τ) (main (F := Ideal))) ⟨m, fun _ => 0, ρ⟩ (fun r => ∀ c : Dev nD,
      r.2.mem ((c.tc : Thread nD τ).loc main_v2) = Cert.Attn.kernelG (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v2 (by decide))).trans (out_eq m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

end Cert.KernelIdeal.Val

end
-- ==== Proof.RefValue.lean ====
/-
  The reference side, read index by index. The reference program forms Q, K, V as inner products of the rows of X with
  the rows of the weight matrices, the logits as Q·Kᵀ divided by √64, each row's maximum as a fold of max from −∞
  (which is the supremum of the row), the weights exp (logit − maximum), their row totals as sums from 0, every weight
  divided by its row's total, and last the product with V. Each intermediate array, at an index written by its
  coordinates, is the corresponding term of the specification; the last one is the specification's reference row.
-/
import proofs.«176520_j49624052138467_2_alg».proof.Proof.Gen.ReferenceIdeal.Run
import proofs.«176520_j49624052138467_2_alg».proof.Proof.Gen.ReferenceIdeal.Read
import proofs.«176520_j49624052138467_2_alg».proof.Proof.Spec

noncomputable section

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo
open Cert.Attn (proj rowMax wt refRow rScore refAt refG c64)

/-- the array of rows and the three weight matrices, as functions from indices to extended reals -/
abbrev XTy := (⟨S8192x512, .f32⟩ : BufTy).Contents (Elt Ideal)
abbrev WTy := (⟨S64x512, .f32⟩ : BufTy).Contents (Elt Ideal)

/-- row i's logits against every key: the scaled inner products of Q i with the rows of K -/
abbrev sc (x0 : XTy) (x1 x2 : WTy) (i : Fin 8192) : Fin 8192 → EReal :=
  fun j => rScore (proj x0 x1 i) (proj x0 x2 j)

/-! ## The three projections -/

/-- Q at row i and column e is the inner product of row i of X with row e of Wq -/
theorem q_apply (x0 : XTy) (x1 : WTy) (i : Fin 8192) (e : Fin 64) :
    val_main_v1 (F := Ideal) x0 x1 (ix2 i e) = proj x0 x1 i e := by
  rw [val_main_v1_apply]
  unfold proj
  refine Finset.sum_congr rfl fun k _ => ?_
  rw [val_main_v0_apply]
  have e1 : lidx_main_v1 (ix2 i e) k = ix2 i k := funext fun a => by
    match a with | ⟨0, _⟩ => rfl | ⟨1, _⟩ => rfl
  have e2 : idx_main_v0 (ridx_main_v1 (ix2 i e) k) = ix2 e k := funext fun a => by
    match a with | ⟨0, _⟩ => rfl | ⟨1, _⟩ => rfl
  rw [e1, e2]

/-- K likewise, with Wk -/
theorem k_apply (x0 : XTy) (x2 : WTy) (i : Fin 8192) (e : Fin 64) :
    val_main_v3 (F := Ideal) x0 x2 (ix2 i e) = proj x0 x2 i e := by
  rw [val_main_v3_apply]
  unfold proj
  refine Finset.sum_congr rfl fun k _ => ?_
  rw [val_main_v2_apply]
  have e1 : lidx_main_v3 (ix2 i e) k = ix2 i k := funext fun a => by
    match a with | ⟨0, _⟩ => rfl | ⟨1, _⟩ => rfl
  have e2 : idx_main_v2 (ridx_main_v3 (ix2 i e) k) = ix2 e k := funext fun a => by
    match a with | ⟨0, _⟩ => rfl | ⟨1, _⟩ => rfl
  rw [e1, e2]

/-- V likewise, with Wv -/
theorem v_apply (x0 : XTy) (x3 : WTy) (i : Fin 8192) (e : Fin 64) :
    val_main_v5 (F := Ideal) x0 x3 (ix2 i e) = proj x0 x3 i e := by
  rw [val_main_v5_apply]
  unfold proj
  refine Finset.sum_congr rfl fun k _ => ?_
  rw [val_main_v4_apply]
  have e1 : lidx_main_v5 (ix2 i e) k = ix2 i k := funext fun a => by
    match a with | ⟨0, _⟩ => rfl | ⟨1, _⟩ => rfl
  have e2 : idx_main_v4 (ridx_main_v5 (ix2 i e) k) = ix2 e k := funext fun a => by
    match a with | ⟨0, _⟩ => rfl | ⟨1, _⟩ => rfl
  rw [e1, e2]

/-! ## The logits -/

/-- Q·Kᵀ at (i, j) is the inner product of Q i with K j (the transposed K is read back at (j, e)) -/
theorem dot_apply (x0 : XTy) (x1 x2 : WTy) (i j : Fin 8192) :
    val_main_v7 (F := Ideal) x0 x1 x2 (ix2 i j) = ∑ e : Fin 64, proj x0 x1 i e * proj x0 x2 j e := by
  rw [val_main_v7_apply]
  refine Finset.sum_congr rfl fun e _ => ?_
  rw [val_main_v6_apply]
  have e1 : lidx_main_v7 (ix2 i j) e = ix2 i e := funext fun a => by
    match a with | ⟨0, _⟩ => rfl | ⟨1, _⟩ => rfl
  have e2 : idx_main_v6 (ridx_main_v7 (ix2 i j) e) = ix2 j e := funext fun a => by
    match a with | ⟨0, _⟩ => rfl | ⟨1, _⟩ => rfl
  rw [e1, e2, q_apply, k_apply]

/-- the broadcast divisor is √64 everywhere -/
theorem scale_apply (y : S8192x8192.Idx) : val_main_v9 (F := Ideal) y = Ideal.sqrt c64 := by
  rw [val_main_v9_apply, val_main_v8_apply, val_main_cst_apply]
  rfl

/-- the scaled logit at (i, j) is the specification's score of Q i against K j -/
theorem score_apply (x0 : XTy) (x1 x2 : WTy) (i j : Fin 8192) :
    val_main_v10 (F := Ideal) x0 x1 x2 (ix2 i j) = sc x0 x1 x2 i j := by
  rw [val_main_v10_apply, dot_apply, scale_apply, Ideal.hostDivf_def]
  rfl

/-! ## The row maximum -/

/-- the word of −∞ is ⊥ -/
theorem negInf : Ideal.ofBits .f32 0xFF800000#32 = ⊥ := by simp [Ideal.ofBits, Ideal.ieee]

/-- a fold of max from ⊥ over all of a finite index type is the supremum -/
theorem fold_max_bot {n : Nat} (f : Fin n → EReal) :
    (Finset.univ : Finset (Fin n)).fold max ⊥ f = Finset.univ.sup f := rfl

/-- the reduced index i with key k put back on the dropped axis is (i, k) -/
theorem lift_row (h : S8192x8192.Reduces [1] S8192) (i : Fin 8192) (k : Fin (S8192x8192.size 1)) :
    h.lift (ix1 i) k = ix2 i (⟨k.val, k.isLt⟩ : Fin 8192) := by
  funext c; apply Fin.ext
  fin_cases c <;> rfl

/-- the max-reduce along the keys, at row i, is the supremum of row i's logits -/
theorem max_apply (x0 : XTy) (x1 x2 : WTy) (i : Fin 8192) :
    val_main_v11 (F := Ideal) x0 x1 x2 (ix1 i) = rowMax (sc x0 x1 x2 i) := by
  unfold val_main_v11
  have h : S8192x8192.Reduces [1] S8192 := by decide
  rw [Host.reduce_eq_fold_single FloatOps.maximumf _ _ _ h h_S_]
  have hf : (val_main_v10 (F := Ideal) x0 x1 x2 ∘ h.lift (ix1 i)) = sc x0 x1 x2 i := funext fun k => by
    show val_main_v10 (F := Ideal) x0 x1 x2 (h.lift (ix1 i) k) = _
    rw [lift_row h i k]
    exact score_apply x0 x1 x2 i _
  refine (congrArg (fun f => Finset.fold max (val_main_cst_0 (F := Ideal) (Shape.Idx.first h_S_)) f (Finset.univ : Finset (Fin 8192))) hf).trans ?_
  rw [val_main_cst_0_apply, Ideal.ofBits_def, negInf]
  exact fold_max_bot _

/-- the further maximum with a broadcast −∞ changes nothing -/
theorem max2_apply (x0 : XTy) (x1 x2 : WTy) (i : Fin 8192) :
    val_main_v13 (F := Ideal) x0 x1 x2 (ix1 i) = rowMax (sc x0 x1 x2 i) := by
  rw [val_main_v13_apply, val_main_v12_apply, val_main_cst_1_apply, max_apply, Ideal.maximumf_def, Ideal.ofBits_def, negInf]
  exact max_eq_right bot_le

/-- the row maximum broadcast back over the keys -/
theorem bmax_apply (x0 : XTy) (x1 x2 : WTy) (i j : Fin 8192) :
    val_main_v15 (F := Ideal) x0 x1 x2 (ix2 i j) = rowMax (sc x0 x1 x2 i) := by
  rw [val_main_v15_apply, val_main_v14_apply]
  have e1 : idx_main_v14 (idx_main_v15 (ix2 i j)) = ix1 i := funext fun a => by
    match a with | ⟨0, _⟩ => rfl
  rw [e1, max2_apply]

/-! ## The weights, their total, the normalised weights -/

/-- key j's unnormalised weight in row i -/
theorem wt_apply (x0 : XTy) (x1 x2 : WTy) (i j : Fin 8192) :
    val_main_v17 (F := Ideal) x0 x1 x2 (ix2 i j) = wt (sc x0 x1 x2 i) j := by
  rw [val_main_v17_apply, val_main_v16_apply, score_apply, bmax_apply, Ideal.hostUnary_exp_def, Ideal.subf_def]
  rfl

/-- row i's total weight: the sum from 0 over the keys -/
theorem total_apply (x0 : XTy) (x1 x2 : WTy) (i : Fin 8192) :
    val_main_v18 (F := Ideal) x0 x1 x2 (ix1 i) = ∑ j : Fin 8192, wt (sc x0 x1 x2 i) j := by
  rw [val_main_v18_apply, val_main_cst_2_apply, Ideal.ofBits_def, Ideal.ofBits_zero_f32, zero_add]
  refine Finset.sum_congr rfl fun k _ => ?_
  have e1 : idx_main_v18 (ix1 i) k = ix2 i k := funext fun a => by
    match a with | ⟨0, _⟩ => rfl | ⟨1, _⟩ => rfl
  rw [e1, wt_apply]

/-- the total broadcast back over the keys -/
theorem btotal_apply (x0 : XTy) (x1 x2 : WTy) (i j : Fin 8192) :
    val_main_v20 (F := Ideal) x0 x1 x2 (ix2 i j) = ∑ j' : Fin 8192, wt (sc x0 x1 x2 i) j' := by
  rw [val_main_v20_apply, val_main_v19_apply]
  have e1 : idx_main_v19 (idx_main_v20 (ix2 i j)) = ix1 i := funext fun a => by
    match a with | ⟨0, _⟩ => rfl
  rw [e1, total_apply]

/-- each weight divided by the row's total -/
theorem norm_apply (x0 : XTy) (x1 x2 : WTy) (i j : Fin 8192) :
    val_main_v21 (F := Ideal) x0 x1 x2 (ix2 i j)
      = Ideal.div (wt (sc x0 x1 x2 i) j) (∑ j' : Fin 8192, wt (sc x0 x1 x2 i) j') := by
  rw [val_main_v21_apply, wt_apply, btotal_apply, Ideal.hostDivf_def]

/-! ## The result -/

/-- the result at (i, d) is the specification's reference row -/
theorem out_apply (x0 : XTy) (x1 x2 x3 : WTy) (i : Fin 8192) (d : Fin 64) :
    val_main_v22 (F := Ideal) x0 x1 x2 x3 (ix2 i d) = refAt x0 x1 x2 x3 i d := by
  rw [val_main_v22_apply]
  unfold refAt refRow
  refine Finset.sum_congr rfl fun j _ => ?_
  have e1 : lidx_main_v22 (ix2 i d) j = ix2 i j := funext fun a => by
    match a with | ⟨0, _⟩ => rfl | ⟨1, _⟩ => rfl
  have e2 : ridx_main_v22 (ix2 i d) j = ix2 j d := funext fun a => by
    match a with | ⟨0, _⟩ => rfl | ⟨1, _⟩ => rfl
  rw [e1, e2, norm_apply, v_apply]

/-- the reference run's result term is the specification's refG of the argument arrays -/
theorem val_eq_refG (x0 : (⟨S8192x512, .f32⟩ : BufTy).Contents (Elt Ideal)) (x1 x2 x3 : (⟨S64x512, .f32⟩ : BufTy).Contents (Elt Ideal)) :
    Cert.ReferenceIdeal.Read.val_main_v22 (F := Ideal) x0 x1 x2 x3 = Cert.Attn.refG x0 x1 x2 x3 := by
  funext y
  obtain ⟨i, d, rfl⟩ : ∃ (i : Fin 8192) (d : Fin 64), y = ix2 i d := ⟨y 0, y 1, eq_ix2 y⟩
  exact out_apply x0 x1 x2 x3 i d

/-- the reference's run with its result named by the specification, and its frame -/
theorem run_refG (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v22) = Cert.Attn.refG (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (by rw [Read.val_main_v22_eq, val_eq_refG]), (h c).2⟩)
    (Cert.ReferenceIdeal.Value.run (F := Ideal) m ρ)

end Cert.ReferenceIdeal.RefValue

end
-- ==== Proof.Algebra.lean ====
/-
  The algebra of the certificate over the extended reals. On real-valued arrays every intermediate of both programs is a
  real number, so the three places where they differ are identities of real arithmetic:
  (1) scaling each factor of an inner product by 1/8 is dividing the inner product by √64 = 8;
  (2) a row's largest logit is attained, hence real, so every weight exp (s j − max) is a positive real and the
      total weight is a positive real L;
  (3) (∑ p_j v_j) / L = ∑ (p_j / L) v_j.
-/
import proofs.«176520_j49624052138467_2_alg».proof.Proof.Spec
import Mathlib.Analysis.SpecialFunctions.Sqrt
import Mathlib.Analysis.SpecialFunctions.Exp

noncomputable section

namespace Cert.Attn

open Idealize.ShloMosaic Idealize.ShloMosaic.ValueIdx
open scoped BigOperators

/-! ## Sums of reals inside the extended reals -/

/-- A finite sum of reals, taken in the extended reals, is the real sum. -/
theorem coe_sum {ι : Type} (t : Finset ι) (f : ι → ℝ) : (∑ i ∈ t, (f i : EReal)) = ((∑ i ∈ t, f i : ℝ) : EReal) := by
  classical
  induction t using Finset.induction_on with
  | empty => simp
  | insert a t ha ih => rw [Finset.sum_insert ha, Finset.sum_insert ha, ih, EReal.coe_add]

/-- An inner product of two real-valued families is the real inner product. -/
theorem coe_dot {ι : Type} [Fintype ι] (a b : ι → ℝ) :
    (∑ i, (a i : EReal) * (b i : EReal)) = ((∑ i, a i * b i : ℝ) : EReal) := by
  rw [← coe_sum]
  exact Finset.sum_congr rfl fun i _ => (EReal.coe_mul _ _).symm

/-- A projection of real-valued arrays is real. -/
theorem proj_real (X : (⟨2, ![8192, 512]⟩ : Shape).Idx → EReal) (W : (⟨2, ![64, 512]⟩ : Shape).Idx → EReal)
    (hX : ∀ i, ∃ r : ℝ, X i = (r : EReal)) (hW : ∀ i, ∃ r : ℝ, W i = (r : EReal)) (i : Fin 8192) (e : Fin 64) :
    ∃ r : ℝ, proj X W i e = (r : EReal) := by
  choose fx hfx using hX
  choose fw hfw using hW
  refine ⟨∑ k : Fin 512, fx (ix2 i k) * fw (ix2 e k), ?_⟩
  unfold proj
  rw [← coe_dot]
  exact Finset.sum_congr rfl fun k _ => by rw [hfx, hfw]

/-! ## The two scales -/

/-- The word of 0.125 denotes the real 1/8. -/
theorem cEighth_eq : cEighth = ((1 / 8 : ℝ) : EReal) := by
  simp [Ideal.ofBits, Ideal.ieee, -EReal.coe_mul]; norm_num

/-- The word of 64.0 denotes the real 64. -/
theorem c64_eq : c64 = ((64 : ℝ) : EReal) := by
  simp [Ideal.ofBits, Ideal.ieee, -EReal.coe_mul]; norm_num

/-- The square root of 64 is 8. -/
theorem sqrt_c64 : Ideal.sqrt c64 = ((8 : ℝ) : EReal) := by
  rw [c64_eq, Ideal.sqrt_coe, if_neg (by norm_num)]
  congr 1
  rw [show (64 : ℝ) = 8 ^ 2 by norm_num]
  exact Real.sqrt_sq (by norm_num)

/-- The kernel's logit of real-valued vectors, as a real. -/
theorem kScore_coe (a b : Fin 64 → ℝ) :
    kScore (fun e => (a e : EReal)) (fun e => (b e : EReal)) = (((∑ e, a e * b e) * (1 / 8) : ℝ) : EReal) := by
  unfold kScore
  rw [cEighth_eq, Finset.sum_mul, ← coe_sum]
  exact Finset.sum_congr rfl fun e _ => by rw [← EReal.coe_mul, ← EReal.coe_mul]; congr 1; ring

/-- The reference's logit of real-valued vectors, as the same real. -/
theorem rScore_coe (a b : Fin 64 → ℝ) :
    rScore (fun e => (a e : EReal)) (fun e => (b e : EReal)) = (((∑ e, a e * b e) * (1 / 8) : ℝ) : EReal) := by
  unfold rScore
  rw [sqrt_c64, Ideal.div_coe (by norm_num), coe_dot, ← EReal.coe_mul]

/-- On real-valued vectors the two logits agree, and are real. -/
theorem score_eq (q k : Fin 64 → EReal) (hq : ∀ e, ∃ r : ℝ, q e = (r : EReal)) (hk : ∀ e, ∃ r : ℝ, k e = (r : EReal)) :
    rScore q k = kScore q k ∧ ∃ r : ℝ, kScore q k = (r : EReal) := by
  choose a ha using hq
  choose b hb using hk
  obtain rfl : q = fun e => (a e : EReal) := funext ha
  obtain rfl : k = fun e => (b e : EReal) := funext hb
  exact ⟨(rScore_coe a b).trans (kScore_coe a b).symm, _, kScore_coe a b⟩

/-! ## One row -/

/-- The normalising quotient commutes with the weighted sum, for real weights of nonzero total. -/
theorem div_sum_real {ι : Type} [Fintype ι] (p b : ι → ℝ) (hL : (∑ j, p j) ≠ 0) :
    Ideal.div (∑ j, (p j : EReal) * (b j : EReal)) (∑ j, (p j : EReal))
      = ∑ j, Ideal.div (p j : EReal) (∑ j', (p j' : EReal)) * (b j : EReal) := by
  rw [coe_sum, coe_dot, Ideal.div_coe hL, ← EReal.coe_mul]
  have : ∀ j, Ideal.div (p j : EReal) ((∑ j', p j' : ℝ) : EReal) * (b j : EReal) = ((p j * (1 / ∑ j', p j') * b j : ℝ) : EReal) := by
    intro j; rw [Ideal.div_coe hL, ← EReal.coe_mul, ← EReal.coe_mul]
  simp only [this]
  rw [coe_sum, Finset.sum_mul]
  congr 1
  exact Finset.sum_congr rfl fun j _ => by ring

/-- On real-valued logits and values the reference's row is the kernel's row. -/
theorem row_eq (s v : Fin 8192 → EReal) (hs : ∀ j, ∃ r : ℝ, s j = (r : EReal)) (hv : ∀ j, ∃ r : ℝ, v j = (r : EReal)) :
    refRow s v = kernelRow s v := by
  choose a ha using hs
  choose b hb using hv
  -- the largest logit is attained, so it is real
  obtain ⟨i0, -, h0⟩ := Finset.exists_mem_eq_sup (Finset.univ : Finset (Fin 8192)) ⟨⟨0, by norm_num⟩, Finset.mem_univ _⟩ s
  have hm : rowMax s = (a i0 : EReal) := h0.trans (ha i0)
  -- so each weight is a positive real
  have hw : ∀ j, wt s j = ((Real.exp (a j - a i0) : ℝ) : EReal) := by
    intro j; unfold wt; rw [hm, ha j, ← EReal.coe_sub, Ideal.exp_coe]
  have hL : (∑ j : Fin 8192, Real.exp (a j - a i0)) ≠ 0 :=
    (Finset.sum_pos (fun j _ => Real.exp_pos _) ⟨⟨0, by norm_num⟩, Finset.mem_univ _⟩).ne'
  unfold refRow kernelRow
  simp only [hw, hb]
  exact (div_sum_real (fun j => Real.exp (a j - a i0)) b hL).symm

/-! ## The arrays -/

theorem bridge (X : (⟨2, ![8192, 512]⟩ : Shape).Idx → EReal) (Wq Wk Wv : (⟨2, ![64, 512]⟩ : Shape).Idx → EReal)
    (hX : ∀ i, ∃ r : ℝ, X i = (r : EReal)) (hq : ∀ i, ∃ r : ℝ, Wq i = (r : EReal))
    (hk : ∀ i, ∃ r : ℝ, Wk i = (r : EReal)) (hv : ∀ i, ∃ r : ℝ, Wv i = (r : EReal)) :
    refG X Wq Wk Wv = kernelG X Wq Wk Wv := by
  funext y
  unfold refG kernelG refAt kernelAt
  have hsc : ∀ j, rScore (proj X Wq (y 0)) (proj X Wk j) = kScore (proj X Wq (y 0)) (proj X Wk j)
      ∧ ∃ r : ℝ, kScore (proj X Wq (y 0)) (proj X Wk j) = (r : EReal) :=
    fun j => score_eq _ _ (proj_real X Wq hX hq (y 0)) (proj_real X Wk hX hk j)
  rw [show (fun j => rScore (proj X Wq (y 0)) (proj X Wk j)) = fun j => kScore (proj X Wq (y 0)) (proj X Wk j) from
    funext fun j => (hsc j).1]
  exact row_eq _ _ (fun j => (hsc j).2) (fun j => proj_real X Wv hX hv j (y 1))

end Cert.Attn

end
-- ==== Proof.Finite.lean ====
/-
  From the printed finiteness predicate to the mathematical hypothesis: if the conjunction of the four "every entry has a
  magnitude below +∞" tests answers 1, then every entry of each of the four arrays is a real number (neither ⊥ nor ⊤).
  The predicate is an `and` of four all-reductions; each all-reduction that is 1 had a 1 at every entry; an entry's test
  |x| < ⊤ rules out both infinities.
-/
import proofs.«176520_j49624052138467_2_alg».proof.Proof.Gen.Pre_finite_inputs
import Idealize.ShloMosaic.Lib.ReduceAll
import Idealize.ShloMosaic.Lib.ValueIdx

noncomputable section

namespace Cert.Attn

open Idealize.ShloMosaic Idealize.ShloMosaic.ValueIdx Cert.Pre_finite_inputs Cert.Pre_finite_inputs.Gen

/-- The word of +∞ denotes ⊤. -/
theorem inf_word : Ideal.ofBits .f32 0x7F800000#32 = (⊤ : EReal) := by simp [Ideal.ofBits, Ideal.ieee]

/-- An extended real whose magnitude max x (−x) compares below +∞ is a real. -/
theorem real_of_abs_lt (x : EReal) (h : Ideal.cmp .olt (max x (-x)) (Ideal.ofBits .f32 0x7F800000#32) = 1#1) :
    ∃ r : ℝ, x = (r : EReal) := by
  rw [inf_word] at h
  induction x using EReal.rec with
  | bot => simp [Ideal.cmp] at h
  | coe r => exact ⟨r, rfl⟩
  | top => simp [Ideal.cmp] at h

/-- The scalar shape has one index. -/
instance : Subsingleton S_.Idx := ⟨fun a b => funext fun d => d.elim0⟩

/-- One all-reduction of the entrywise test |x| < +∞ that answers 1: every entry of x is a real. -/
theorem real_of_all {S : Shape} {axes : List (Fin S.rank)} (hr : S.ReducesTo axes S_) (hu : 0 < S_.numel)
    (dims : Fin S_.rank → Fin S.rank) (hb : S_.BroadcastsInDim S dims) (x : FVec Ideal S .f32) (init : IVec S_ 1)
    (e : Host.reduce IntOp.andi
          (cmpf .olt (Host.absf x) (broadcastInDim S dims hb (constant (F := Ideal) S_ .f32 0x7F800000#32))) init hr hu ix0
        = 1#1) (i : S.Idx) : ∃ r : ℝ, x i = (r : EReal) :=
  real_of_abs_lt (x i) (Host.reduce_andi_all _ init hr hu ix0 e i)

theorem real_of_pre (x : FVec Ideal Cert.Pre_finite_inputs.S8192x512 .f32) (wq wk wv : FVec Ideal Cert.Pre_finite_inputs.S64x512 .f32)
    (h : Cert.Pre_finite_inputs.fn (F := Ideal) x wq wk wv = fun _ => 1#1) :
    (∀ i, ∃ r : ℝ, x i = (r : EReal)) ∧ (∀ i, ∃ r : ℝ, wq i = (r : EReal)) ∧ (∀ i, ∃ r : ℝ, wk i = (r : EReal)) ∧ (∀ i, ∃ r : ℝ, wv i = (r : EReal)) := by
  have h0 := congrFun h ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  exact ⟨real_of_all _ _ _ _ x _ h1, real_of_all _ _ _ _ wq _ h2, real_of_all _ _ _ _ wk _ h3, real_of_all _ _ _ _ wv _ h4⟩

end Cert.Attn

end
-- ==== Proof.lean ====
/-
  Single-head attention over 8192 rows: a Pallas kernel of two launches (a fused projection X·[Wq;Wk;Wv]ᵀ sliced into Q, K, V; then
  per 256-row query tile softmax((Q/8)·Kᵀ)·V with the normalising quotient taken after the weighted sum) against a jnp reference
  (Q·Kᵀ divided by √64, a max-subtracted softmax with every weight divided by the row total, then ·V).
  Frames: each program runs to the end, faults nowhere and leaves its four argument arrays as launched — the kernel's (at both
  instances) by running each launch's body on its blocks and folding the buffer contents through the host line and the two launches,
  the reference's off its run. The idealization rewrote nothing, so there is nothing to preserve. At the exact instance the kernel's
  result is the specification's kernel form (Proof/ValRun.lean) and the reference's its reference form (Proof/RefValue.lean); on
  finite inputs — which the precondition states, decoded in Proof/Finite.lean — every intermediate is a real number, 1/8 is the
  reciprocal of √64, and the quotient by the positive row total moves across the finite sum, so the two forms agree
  (Proof/Algebra.lean).
-/
import proofs.«176520_j49624052138467_2_alg».proof.Defs
import proofs.«176520_j49624052138467_2_alg».proof.Proof.Gen.Kernel
import proofs.«176520_j49624052138467_2_alg».proof.Proof.Gen.KernelIdeal
import proofs.«176520_j49624052138467_2_alg».proof.Proof.Gen.ReferenceIdeal
import proofs.«176520_j49624052138467_2_alg».proof.Proof.Gen.Pre_finite_inputs
import proofs.«176520_j49624052138467_2_alg».proof.Proof.FrBRun
import proofs.«176520_j49624052138467_2_alg».proof.Proof.FrIRun
import proofs.«176520_j49624052138467_2_alg».proof.Proof.ValRun
import proofs.«176520_j49624052138467_2_alg».proof.Proof.RefValue
import proofs.«176520_j49624052138467_2_alg».proof.Proof.Algebra
import proofs.«176520_j49624052138467_2_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2) (Cert.ReferenceIdeal.RefValue.run_refG m ρ)

/-- From memories agreeing on the arguments, finite by the precondition, the two results are one function of them. -/
theorem algebraic : Cert.algebraic_KernelIdeal_ReferenceIdeal := by
  intro m ρ m' ρ' hpre hagree
  refine ⟨_, Cert.KernelIdeal.Val.run m ρ, ?_⟩
  refine (θ_run Cert.ReferenceIdeal.defs _ _).mono (fun _ h c => ⟨(h c).1.trans ?_, (h c).2⟩)
    (Cert.ReferenceIdeal.RefValue.run_refG m' ρ')
  rw [(hagree c).1, (hagree c).2.1, (hagree c).2.2.1, (hagree c).2.2.2]
  obtain ⟨hX, hq, hk, hv⟩ := Cert.Attn.real_of_pre _ _ _ _ (hpre c)
  exact Cert.Attn.bridge _ _ _ _ hX hq hk hv

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
